-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x384x768 : Shape := ⟨4, ![4, 32, 384, 768]⟩
abbrev S4x25x384x768 : Shape := ⟨4, ![4, 25, 384, 768]⟩
abbrev S_ : Shape := ⟨0, ![]⟩

class Facts : Prop where
  bcast_S_S4x32x384x768 : S_.BroadcastsInDim S4x32x384x768 (![] : Fin 0 → Fin S4x32x384x768.rank)
  reducesTo_S4x32x384x768_S_d0_1_2_3 : S4x32x384x768.ReducesTo [0, 1, 2, 3] S_
  h_S_ : 0 < S_.numel
  bcast_S_S4x25x384x768 : S_.BroadcastsInDim S4x25x384x768 (![] : Fin 0 → Fin S4x25x384x768.rank)
  reducesTo_S4x25x384x768_S_d0_1_2_3 : S4x25x384x768.ReducesTo [0, 1, 2, 3] S_

variable [Facts]

def fn {F : FTy → Type} [FloatOps F] (main_arg0 : FVec F S4x32x384x768 .f32) (main_arg1 : FVec F S4x25x384x768 .f32) : IVec S_ 1 :=
  let main_v0 : FVec F S4x32x384x768 .f32 := Host.absf main_arg0
  let main_cst : FVec F S_ .f32 := constant S_ .f32 0x7F800000#32
  let main_v1 : FVec F S4x32x384x768 .f32 := broadcastInDim S4x32x384x768 ![] bcast_S_S4x32x384x768 main_cst
  let main_v2 : IVec S4x32x384x768 1 := cmpf .olt main_v0 main_v1
  let main_c : IVec S_ 1 := constantI S_ 1 1#1
  let main_v3 : IVec S_ 1 := (fun x v => Host.reduce IntOp.andi x v reducesTo_S4x32x384x768_S_d0_1_2_3 h_S_) main_v2 main_c
  let main_v4 : FVec F S4x25x384x768 .f32 := Host.absf main_arg1
  let main_cst_0 : FVec F S_ .f32 := constant S_ .f32 0x7F800000#32
  let main_v5 : FVec F S4x25x384x768 .f32 := broadcastInDim S4x25x384x768 ![] bcast_S_S4x25x384x768 main_cst_0
  let main_v6 : IVec S4x25x384x768 1 := cmpf .olt main_v4 main_v5
  let main_c_1 : IVec S_ 1 := constantI S_ 1 1#1
  let main_v7 : IVec S_ 1 := (fun x v => Host.reduce IntOp.andi x v reducesTo_S4x25x384x768_S_d0_1_2_3 h_S_) main_v6 main_c_1
  let main_v8 : IVec S_ 1 := andi main_v3 main_v7
  main_v8
-- ==== Kernel.lean ====
abbrev S4x32x384x768 : Shape := ⟨4, ![4, 32, 384, 768]⟩
abbrev S4x25x384x768 : Shape := ⟨4, ![4, 25, 384, 768]⟩
abbrev S_ : Shape := ⟨0, ![]⟩
abbrev S4x32x388x772 : Shape := ⟨4, ![4, 32, 388, 772]⟩
abbrev S1x1x388x772 : Shape := ⟨4, ![1, 1, 388, 772]⟩
abbrev S1x25x384x768 : Shape := ⟨4, ![1, 25, 384, 768]⟩
abbrev S1x1x384x768 : Shape := ⟨4, ![1, 1, 384, 768]⟩
abbrev S1x388x772 : Shape := ⟨3, ![1, 388, 772]⟩
abbrev S1x384x768 : Shape := ⟨3, ![1, 384, 768]⟩
abbrev S384x768 : Shape := ⟨2, ![384, 768]⟩

abbrev nBuf : Space → Nat
  | .hbm => 6
  | .vmem => 5
  | .smem => 0
  | _ => 0

abbrev bufTy : (tb : Table) → Fin (tcTables nBuf tb) → BufTy
  | .hbm, ⟨0, _⟩ => ⟨S4x32x384x768, .f32⟩
  | .hbm, ⟨1, _⟩ => ⟨S4x25x384x768, .f32⟩
  | .hbm, ⟨2, _⟩ => ⟨S_, .i32⟩
  | .hbm, ⟨3, _⟩ => ⟨S_, .f32⟩
  | .hbm, ⟨4, _⟩ => ⟨S4x32x388x772, .f32⟩
  | .hbm, ⟨5, _⟩ => ⟨S4x32x384x768, .f32⟩
  | .local _ .vmem, ⟨0, _⟩ => ⟨S1x1x388x772, .f32⟩
  | .local _ .vmem, ⟨1, _⟩ => ⟨S1x1x388x772, .f32⟩
  | .local _ .vmem, ⟨2, _⟩ => ⟨S1x25x384x768, .f32⟩
  | .local _ .vmem, ⟨3, _⟩ => ⟨S1x1x384x768, .f32⟩
  | .local _ .vmem, ⟨4, _⟩ => ⟨S1x1x384x768, .f32⟩
  | _, _ => ⟨S4x32x384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x388x772 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x25x384x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x1x384x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S4x32x384x768_S4x32x388x772_000_000_220_220 : S4x32x384x768.Pads (![0, 0, 2, 2] : Fin 4 → Nat) ![0, 0, 2, 2] ![0, 0, 0, 0] S4x32x388x772
  h_S_ : 0 < S_.numel
  inb_S1x1x388x772_S1x1x388x772_0_0_0_0 : ∀ a, (![0, 0, 0, 0] : Fin 4 → Nat) a + S1x1x388x772.size a ≤ S1x1x388x772.size a
  h_S1x1x388x772 : 0 < S1x1x388x772.numel
  shapeCasts_S1x1x388x772_S1x388x772 : S1x1x388x772.ShapeCasts S1x388x772
  inb_S1x25x384x768_S1x1x384x768_0_0_0_0 : ∀ a, (![0, 0, 0, 0] : Fin 4 → Nat) a + S1x1x384x768.size a ≤ S1x25x384x768.size a
  h_S1x1x384x768 : 0 < S1x1x384x768.numel
  shapeCasts_S1x1x384x768_S384x768 : S1x1x384x768.ShapeCasts S384x768
  slices_S1x388x772_o0_0_0_S1x384x768 : S1x388x772.Slices ![0, 0, 0] S1x384x768
  shapeCasts_S384x768_S1x384x768 : S384x768.ShapeCasts S1x384x768
  inb_S1x25x384x768_S1x1x384x768_0_1_0_0 : ∀ a, (![0, 1, 0, 0] : Fin 4 → Nat) a + S1x1x384x768.size a ≤ S1x25x384x768.size a
  slices_S1x388x772_o0_0_1_S1x384x768 : S1x388x772.Slices ![0, 0, 1] S1x384x768
  inb_S1x25x384x768_S1x1x384x768_0_2_0_0 : ∀ a, (![0, 2, 0, 0] : Fin 4 → Nat) a + S1x1x384x768.size a ≤ S1x25x384x768.size a
  slices_S1x388x772_o0_0_2_S1x384x768 : S1x388x772.Slices ![0, 0, 2] S1x384x768
  inb_S1x25x384x768_S1x1x384x768_0_3_0_0 : ∀ a, (![0, 3, 0, 0] : Fin 4 → Nat) a + S1x1x384x768.size a ≤ S1x25x384x768.size a
  slices_S1x388x772_o0_0_3_S1x384x768 : S1x388x772.Slices ![0, 0, 3] S1x384x768
  inb_S1x25x384x768_S1x1x384x768_0_4_0_0 : ∀ a, (![0, 4, 0, 0] : Fin 4 → Nat) a + S1x1x384x768.size a ≤ S1x25x384x768.size a
  slices_S1x388x772_o0_0_4_S1x384x768 : S1x388x772.Slices ![0, 0, 4] S1x384x768
  inb_S1x25x384x768_S1x1x384x768_0_5_0_0 : ∀ a, (![0, 5, 0, 0] : Fin 4 → Nat) a + S1x1x384x768.size a ≤ S1x25x384x768.size a
  slices_S1x388x772_o0_1_0_S1x384x768 : S1x388x772.Slices ![0, 1, 0] S1x384x768
  inb_S1x25x384x768_S1x1x384x768_0_6_0_0 : ∀ a, (![0, 6, 0, 0] : Fin 4 → Nat) a + S1x1x384x768.size a ≤ S1x25x384x768.size a
  slices_S1x388x772_o0_1_1_S1x384x768 : S1x388x772.Slices ![0, 1, 1] S1x384x768
  inb_S1x25x384x768_S1x1x384x768_0_7_0_0 : ∀ a, (![0, 7, 0, 0] : Fin 4 → Nat) a + S1x1x384x768.size a ≤ S1x25x384x768.size a
  slices_S1x388x772_o0_1_2_S1x384x768 : S1x388x772.Slices ![0, 1, 2] S1x384x768
  inb_S1x25x384x768_S1x1x384x768_0_8_0_0 : ∀ a, (![0, 8, 0, 0] : Fin 4 → Nat) a + S1x1x384x768.size a ≤ S1x25x384x768.size a
  slices_S1x388x772_o0_1_3_S1x384x768 : S1x388x772.Slices ![0, 1, 3] S1x384x768
  inb_S1x25x384x768_S1x1x384x768_0_9_0_0 : ∀ a, (![0, 9, 0, 0] : Fin 4 → Nat) a + S1x1x384x768.size a ≤ S1x25x384x768.size a
  slices_S1x388x772_o0_1_4_S1x384x768 : S1x388x772.Slices ![0, 1, 4] S1x384x768
  inb_S1x25x384x768_S1x1x384x768_0_10_0_0 : ∀ a, (![0, 10, 0, 0] : Fin 4 → Nat) a + S1x1x384x768.size a ≤ S1x25x384x768.size a
  slices_S1x388x772_o0_2_0_S1x384x768 : S1x388x772.Slices ![0, 2, 0] S1x384x768
  inb_S1x25x384x768_S1x1x384x768_0_11_0_0 : ∀ a, (![0, 11, 0, 0] : Fin 4 → Nat) a + S1x1x384x768.size a ≤ S1x25x384x768.size a
  slices_S1x388x772_o0_2_1_S1x384x768 : S1x388x772.Slices ![0, 2, 1] S1x384x768
  inb_S1x25x384x768_S1x1x384x768_0_12_0_0 : ∀ a, (![0, 12, 0, 0] : Fin 4 → Nat) a + S1x1x384x768.size a ≤ S1x25x384x768.size a
  slices_S1x388x772_o0_2_2_S1x384x768 : S1x388x772.Slices ![0, 2, 2] S1x384x768
  inb_S1x25x384x768_S1x1x384x768_0_13_0_0 : ∀ a, (![0, 13, 0, 0] : Fin 4 → Nat) a + S1x1x384x768.size a ≤ S1x25x384x768.size a
  slices_S1x388x772_o0_2_3_S1x384x768 : S1x388x772.Slices ![0, 2, 3] S1x384x768
  inb_S1x25x384x768_S1x1x384x768_0_14_0_0 : ∀ a, (![0, 14, 0, 0] : Fin 4 → Nat) a + S1x1x384x768.size a ≤ S1x25x384x768.size a
  slices_S1x388x772_o0_2_4_S1x384x768 : S1x388x772.Slices ![0, 2, 4] S1x384x768
  inb_S1x25x384x768_S1x1x384x768_0_15_0_0 : ∀ a, (![0, 15, 0, 0] : Fin 4 → Nat) a + S1x1x384x768.size a ≤ S1x25x384x768.size a
  slices_S1x388x772_o0_3_0_S1x384x768 : S1x388x772.Slices ![0, 3, 0] S1x384x768
  inb_S1x25x384x768_S1x1x384x768_0_16_0_0 : ∀ a, (![0, 16, 0, 0] : Fin 4 → Nat) a + S1x1x384x768.size a ≤ S1x25x384x768.size a
  slices_S1x388x772_o0_3_1_S1x384x768 : S1x388x772.Slices ![0, 3, 1] S1x384x768
  inb_S1x25x384x768_S1x1x384x768_0_17_0_0 : ∀ a, (![0, 17, 0, 0] : Fin 4 → Nat) a + S1x1x384x768.size a ≤ S1x25x384x768.size a
  slices_S1x388x772_o0_3_2_S1x384x768 : S1x388x772.Slices ![0, 3, 2] S1x384x768
  inb_S1x25x384x768_S1x1x384x768_0_18_0_0 : ∀ a, (![0, 18, 0, 0] : Fin 4 → Nat) a + S1x1x384x768.size a ≤ S1x25x384x768.size a
  slices_S1x388x772_o0_3_3_S1x384x768 : S1x388x772.Slices ![0, 3, 3] S1x384x768
  inb_S1x25x384x768_S1x1x384x768_0_19_0_0 : ∀ a, (![0, 19, 0, 0] : Fin 4 → Nat) a + S1x1x384x768.size a ≤ S1x25x384x768.size a
  slices_S1x388x772_o0_3_4_S1x384x768 : S1x388x772.Slices ![0, 3, 4] S1x384x768
  inb_S1x25x384x768_S1x1x384x768_0_20_0_0 : ∀ a, (![0, 20, 0, 0] : Fin 4 → Nat) a + S1x1x384x768.size a ≤ S1x25x384x768.size a
  slices_S1x388x772_o0_4_0_S1x384x768 : S1x388x772.Slices ![0, 4, 0] S1x384x768
  inb_S1x25x384x768_S1x1x384x768_0_21_0_0 : ∀ a, (![0, 21, 0, 0] : Fin 4 → Nat) a + S1x1x384x768.size a ≤ S1x25x384x768.size a
  slices_S1x388x772_o0_4_1_S1x384x768 : S1x388x772.Slices ![0, 4, 1] S1x384x768
  inb_S1x25x384x768_S1x1x384x768_0_22_0_0 : ∀ a, (![0, 22, 0, 0] : Fin 4 → Nat) a + S1x1x384x768.size a ≤ S1x25x384x768.size a
  slices_S1x388x772_o0_4_2_S1x384x768 : S1x388x772.Slices ![0, 4, 2] S1x384x768
  inb_S1x25x384x768_S1x1x384x768_0_23_0_0 : ∀ a, (![0, 23, 0, 0] : Fin 4 → Nat) a + S1x1x384x768.size a ≤ S1x25x384x768.size a
  slices_S1x388x772_o0_4_3_S1x384x768 : S1x388x772.Slices ![0, 4, 3] S1x384x768
  inb_S1x25x384x768_S1x1x384x768_0_24_0_0 : ∀ a, (![0, 24, 0, 0] : Fin 4 → Nat) a + S1x1x384x768.size a ≤ S1x25x384x768.size a
  slices_S1x388x772_o0_4_4_S1x384x768 : S1x388x772.Slices ![0, 4, 4] S1x384x768
  inb_S1x1x384x768_S1x1x384x768_0_0_0_0 : ∀ a, (![0, 0, 0, 0] : Fin 4 → Nat) a + S1x1x384x768.size a ≤ S1x1x384x768.size a
  shapeCasts_S1x1x384x768_S1x384x768 : S1x1x384x768.ShapeCasts S1x384x768
  shapeCasts_S1x384x768_S1x1x384x768 : S1x384x768.ShapeCasts S1x1x384x768
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x388x772.size a ≤ S4x32x388x772.size a
  hwx0_0 : ∀ i : grid0.Coords, EltTy.bits .f32 = 32 ∨ (Rect.block (s := S4x32x388x772) S1x1x388x772.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x25x384x768.size a ≤ S4x25x384x768.size a
  hwx0_1 : ∀ i : grid0.Coords, EltTy.bits .f32 = 32 ∨ (Rect.block (s := S4x25x384x768) S1x25x384x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x384x768.size a ≤ S4x32x384x768.size a
  hwx0_2 : ∀ i : grid0.Coords, EltTy.bits .f32 = 32 ∨ (Rect.block (s := S4x32x384x768) S1x1x384x768.size (cc0_transform_2 i) (hinb0_2 i)).WholeWords (EltTy.packing .f32)

variable [Facts₀]

abbrev win0_0 : Pipeline.Window sig grid0 :=
  Pipeline.Window.ofSpec (Memref.whole main_v0) S1x1x388x772.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x25x384x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x384x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x32x384x768 : Shape := ⟨4, ![4, 32, 384, 768]⟩
abbrev S4x25x384x768 : Shape := ⟨4, ![4, 25, 384, 768]⟩
abbrev S_ : Shape := ⟨0, ![]⟩
abbrev S4x32x388x772 : Shape := ⟨4, ![4, 32, 388, 772]⟩
abbrev S4x1x384x768 : Shape := ⟨4, ![4, 1, 384, 768]⟩
abbrev S4x384x768 : Shape := ⟨3, ![4, 384, 768]⟩

abbrev nBuf : Space → Nat
  | .hbm => 182
  | .vmem => 0
  | .smem => 0
  | _ => 0

abbrev hbmTy0_0 (i : Nat) : BufTy := match i % 128 with
  | 0 => ⟨S4x32x384x768, .f32⟩
  | 1 => ⟨S4x25x384x768, .f32⟩
  | 2 => ⟨S_, .i32⟩
  | 3 => ⟨S_, .f32⟩
  | 4 => ⟨S4x32x388x772, .f32⟩
  | 5 => ⟨S_, .f32⟩
  | 6 => ⟨S4x32x384x768, .f32⟩
  | 7 => ⟨S4x32x384x768, .f32⟩
  | 8 => ⟨S4x1x384x768, .f32⟩
  | 9 => ⟨S4x384x768, .f32⟩
  | 10 => ⟨S4x1x384x768, .f32⟩
  | 11 => ⟨S4x32x384x768, .f32⟩
  | 12 => ⟨S4x32x384x768, .f32⟩
  | 13 => ⟨S4x32x384x768, .f32⟩
  | 14 => ⟨S4x32x384x768, .f32⟩
  | 15 => ⟨S4x1x384x768, .f32⟩
  | 16 => ⟨S4x384x768, .f32⟩
  | 17 => ⟨S4x1x384x768, .f32⟩
  | 18 => ⟨S4x32x384x768, .f32⟩
  | 19 => ⟨S4x32x384x768, .f32⟩
  | 20 => ⟨S4x32x384x768, .f32⟩
  | 21 => ⟨S4x32x384x768, .f32⟩
  | 22 => ⟨S4x1x384x768, .f32⟩
  | 23 => ⟨S4x384x768, .f32⟩
  | 24 => ⟨S4x1x384x768, .f32⟩
  | 25 => ⟨S4x32x384x768, .f32⟩
  | 26 => ⟨S4x32x384x768, .f32⟩
  | 27 => ⟨S4x32x384x768, .f32⟩
  | 28 => ⟨S4x32x384x768, .f32⟩
  | 29 => ⟨S4x1x384x768, .f32⟩
  | 30 => ⟨S4x384x768, .f32⟩
  | 31 => ⟨S4x1x384x768, .f32⟩
  | 32 => ⟨S4x32x384x768, .f32⟩
  | 33 => ⟨S4x32x384x768, .f32⟩
  | 34 => ⟨S4x32x384x768, .f32⟩
  | 35 => ⟨S4x32x384x768, .f32⟩
  | 36 => ⟨S4x1x384x768, .f32⟩
  | 37 => ⟨S4x384x768, .f32⟩
  | 38 => ⟨S4x1x384x768, .f32⟩
  | 39 => ⟨S4x32x384x768, .f32⟩
  | 40 => ⟨S4x32x384x768, .f32⟩
  | 41 => ⟨S4x32x384x768, .f32⟩
  | 42 => ⟨S4x32x384x768, .f32⟩
  | 43 => ⟨S4x1x384x768, .f32⟩
  | 44 => ⟨S4x384x768, .f32⟩
  | 45 => ⟨S4x1x384x768, .f32⟩
  | 46 => ⟨S4x32x384x768, .f32⟩
  | 47 => ⟨S4x32x384x768, .f32⟩
  | 48 => ⟨S4x32x384x768, .f32⟩
  | 49 => ⟨S4x32x384x768, .f32⟩
  | 50 => ⟨S4x1x384x768, .f32⟩
  | 51 => ⟨S4x384x768, .f32⟩
  | 52 => ⟨S4x1x384x768, .f32⟩
  | 53 => ⟨S4x32x384x768, .f32⟩
  | 54 => ⟨S4x32x384x768, .f32⟩
  | 55 => ⟨S4x32x384x768, .f32⟩
  | 56 => ⟨S4x32x384x768, .f32⟩
  | 57 => ⟨S4x1x384x768, .f32⟩
  | 58 => ⟨S4x384x768, .f32⟩
  | 59 => ⟨S4x1x384x768, .f32⟩
  | 60 => ⟨S4x32x384x768, .f32⟩
  | 61 => ⟨S4x32x384x768, .f32⟩
  | 62 => ⟨S4x32x384x768, .f32⟩
  | 63 => ⟨S4x32x384x768, .f32⟩
  | 64 => ⟨S4x1x384x768, .f32⟩
  | 65 => ⟨S4x384x768, .f32⟩
  | 66 => ⟨S4x1x384x768, .f32⟩
  | 67 => ⟨S4x32x384x768, .f32⟩
  | 68 => ⟨S4x32x384x768, .f32⟩
  | 69 => ⟨S4x32x384x768, .f32⟩
  | 70 => ⟨S4x32x384x768, .f32⟩
  | 71 => ⟨S4x1x384x768, .f32⟩
  | 72 => ⟨S4x384x768, .f32⟩
  | 73 => ⟨S4x1x384x768, .f32⟩
  | 74 => ⟨S4x32x384x768, .f32⟩
  | 75 => ⟨S4x32x384x768, .f32⟩
  | 76 => ⟨S4x32x384x768, .f32⟩
  | 77 => ⟨S4x32x384x768, .f32⟩
  | 78 => ⟨S4x1x384x768, .f32⟩
  | 79 => ⟨S4x384x768, .f32⟩
  | 80 => ⟨S4x1x384x768, .f32⟩
  | 81 => ⟨S4x32x384x768, .f32⟩
  | 82 => ⟨S4x32x384x768, .f32⟩
  | 83 => ⟨S4x32x384x768, .f32⟩
  | 84 => ⟨S4x32x384x768, .f32⟩
  | 85 => ⟨S4x1x384x768, .f32⟩
  | 86 => ⟨S4x384x768, .f32⟩
  | 87 => ⟨S4x1x384x768, .f32⟩
  | 88 => ⟨S4x32x384x768, .f32⟩
  | 89 => ⟨S4x32x384x768, .f32⟩
  | 90 => ⟨S4x32x384x768, .f32⟩
  | 91 => ⟨S4x32x384x768, .f32⟩
  | 92 => ⟨S4x1x384x768, .f32⟩
  | 93 => ⟨S4x384x768, .f32⟩
  | 94 => ⟨S4x1x384x768, .f32⟩
  | 95 => ⟨S4x32x384x768, .f32⟩
  | 96 => ⟨S4x32x384x768, .f32⟩
  | 97 => ⟨S4x32x384x768, .f32⟩
  | 98 => ⟨S4x32x384x768, .f32⟩
  | 99 => ⟨S4x1x384x768, .f32⟩
  | 100 => ⟨S4x384x768, .f32⟩
  | 101 => ⟨S4x1x384x768, .f32⟩
  | 102 => ⟨S4x32x384x768, .f32⟩
  | 103 => ⟨S4x32x384x768, .f32⟩
  | 104 => ⟨S4x32x384x768, .f32⟩
  | 105 => ⟨S4x32x384x768, .f32⟩
  | 106 => ⟨S4x1x384x768, .f32⟩
  | 107 => ⟨S4x384x768, .f32⟩
  | 108 => ⟨S4x1x384x768, .f32⟩
  | 109 => ⟨S4x32x384x768, .f32⟩
  | 110 => ⟨S4x32x384x768, .f32⟩
  | 111 => ⟨S4x32x384x768, .f32⟩
  | 112 => ⟨S4x32x384x768, .f32⟩
  | 113 => ⟨S4x1x384x768, .f32⟩
  | 114 => ⟨S4x384x768, .f32⟩
  | 115 => ⟨S4x1x384x768, .f32⟩
  | 116 => ⟨S4x32x384x768, .f32⟩
  | 117 => ⟨S4x32x384x768, .f32⟩
  | 118 => ⟨S4x32x384x768, .f32⟩
  | 119 => ⟨S4x32x384x768, .f32⟩
  | 120 => ⟨S4x1x384x768, .f32⟩
  | 121 => ⟨S4x384x768, .f32⟩
  | 122 => ⟨S4x1x384x768, .f32⟩
  | 123 => ⟨S4x32x384x768, .f32⟩
  | 124 => ⟨S4x32x384x768, .f32⟩
  | 125 => ⟨S4x32x384x768, .f32⟩
  | 126 => ⟨S4x32x384x768, .f32⟩
  | 127 => ⟨S4x1x384x768, .f32⟩
  | _ => ⟨S4x32x384x768, .f32⟩

abbrev hbmTy0_1 (i : Nat) : BufTy := match i % 128 with
  | 0 => ⟨S4x384x768, .f32⟩
  | 1 => ⟨S4x1x384x768, .f32⟩
  | 2 => ⟨S4x32x384x768, .f32⟩
  | 3 => ⟨S4x32x384x768, .f32⟩
  | 4 => ⟨S4x32x384x768, .f32⟩
  | 5 => ⟨S4x32x384x768, .f32⟩
  | 6 => ⟨S4x1x384x768, .f32⟩
  | 7 => ⟨S4x384x768, .f32⟩
  | 8 => ⟨S4x1x384x768, .f32⟩
  | 9 => ⟨S4x32x384x768, .f32⟩
  | 10 => ⟨S4x32x384x768, .f32⟩
  | 11 => ⟨S4x32x384x768, .f32⟩
  | 12 => ⟨S4x32x384x768, .f32⟩
  | 13 => ⟨S4x1x384x768, .f32⟩
  | 14 => ⟨S4x384x768, .f32⟩
  | 15 => ⟨S4x1x384x768, .f32⟩
  | 16 => ⟨S4x32x384x768, .f32⟩
  | 17 => ⟨S4x32x384x768, .f32⟩
  | 18 => ⟨S4x32x384x768, .f32⟩
  | 19 => ⟨S4x32x384x768, .f32⟩
  | 20 => ⟨S4x1x384x768, .f32⟩
  | 21 => ⟨S4x384x768, .f32⟩
  | 22 => ⟨S4x1x384x768, .f32⟩
  | 23 => ⟨S4x32x384x768, .f32⟩
  | 24 => ⟨S4x32x384x768, .f32⟩
  | 25 => ⟨S4x32x384x768, .f32⟩
  | 26 => ⟨S4x32x384x768, .f32⟩
  | 27 => ⟨S4x1x384x768, .f32⟩
  | 28 => ⟨S4x384x768, .f32⟩
  | 29 => ⟨S4x1x384x768, .f32⟩
  | 30 => ⟨S4x32x384x768, .f32⟩
  | 31 => ⟨S4x32x384x768, .f32⟩
  | 32 => ⟨S4x32x384x768, .f32⟩
  | 33 => ⟨S4x32x384x768, .f32⟩
  | 34 => ⟨S4x1x384x768, .f32⟩
  | 35 => ⟨S4x384x768, .f32⟩
  | 36 => ⟨S4x1x384x768, .f32⟩
  | 37 => ⟨S4x32x384x768, .f32⟩
  | 38 => ⟨S4x32x384x768, .f32⟩
  | 39 => ⟨S4x32x384x768, .f32⟩
  | 40 => ⟨S4x32x384x768, .f32⟩
  | 41 => ⟨S4x1x384x768, .f32⟩
  | 42 => ⟨S4x384x768, .f32⟩
  | 43 => ⟨S4x1x384x768, .f32⟩
  | 44 => ⟨S4x32x384x768, .f32⟩
  | 45 => ⟨S4x32x384x768, .f32⟩
  | 46 => ⟨S4x32x384x768, .f32⟩
  | 47 => ⟨S4x32x384x768, .f32⟩
  | 48 => ⟨S4x1x384x768, .f32⟩
  | 49 => ⟨S4x384x768, .f32⟩
  | 50 => ⟨S4x1x384x768, .f32⟩
  | 51 => ⟨S4x32x384x768, .f32⟩
  | 52 => ⟨S4x32x384x768, .f32⟩
  | 53 => ⟨S4x32x384x768, .f32⟩
  | _ => ⟨S4x32x384x768, .f32⟩

abbrev hbmTy (i : Nat) : BufTy := match i / 128 with
  | 0 => hbmTy0_0 i
  | 1 => hbmTy0_1 i
  | _ => ⟨S4x32x384x768, .f32⟩

abbrev bufTy : (tb : Table) → Fin (tcTables nBuf tb) → BufTy
  | .hbm, ⟨i, _⟩ => hbmTy i
  | _, _ => ⟨S4x32x384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_v136 : Ref sig .tc := ⟨.hbm, 141, rfl⟩
abbrev main_v137 : Ref sig .tc := ⟨.hbm, 142, rfl⟩
abbrev main_v138 : Ref sig .tc := ⟨.hbm, 143, rfl⟩
abbrev main_v139 : Ref sig .tc := ⟨.hbm, 144, rfl⟩
abbrev main_v140 : Ref sig .tc := ⟨.hbm, 145, rfl⟩
abbrev main_v141 : Ref sig .tc := ⟨.hbm, 146, rfl⟩
abbrev main_v142 : Ref sig .tc := ⟨.hbm, 147, rfl⟩
abbrev main_v143 : Ref sig .tc := ⟨.hbm, 148, rfl⟩
abbrev main_v144 : Ref sig .tc := ⟨.hbm, 149, rfl⟩
abbrev main_v145 : Ref sig .tc := ⟨.hbm, 150, rfl⟩
abbrev main_v146 : Ref sig .tc := ⟨.hbm, 151, rfl⟩
abbrev main_v147 : Ref sig .tc := ⟨.hbm, 152, rfl⟩
abbrev main_v148 : Ref sig .tc := ⟨.hbm, 153, rfl⟩
abbrev main_v149 : Ref sig .tc := ⟨.hbm, 154, rfl⟩
abbrev main_v150 : Ref sig .tc := ⟨.hbm, 155, rfl⟩
abbrev main_v151 : Ref sig .tc := ⟨.hbm, 156, rfl⟩
abbrev main_v152 : Ref sig .tc := ⟨.hbm, 157, rfl⟩
abbrev main_v153 : Ref sig .tc := ⟨.hbm, 158, rfl⟩
abbrev main_v154 : Ref sig .tc := ⟨.hbm, 159, rfl⟩
abbrev main_v155 : Ref sig .tc := ⟨.hbm, 160, rfl⟩
abbrev main_v156 : Ref sig .tc := ⟨.hbm, 161, rfl⟩
abbrev main_v157 : Ref sig .tc := ⟨.hbm, 162, rfl⟩
abbrev main_v158 : Ref sig .tc := ⟨.hbm, 163, rfl⟩
abbrev main_v159 : Ref sig .tc := ⟨.hbm, 164, rfl⟩
abbrev main_v160 : Ref sig .tc := ⟨.hbm, 165, rfl⟩
abbrev main_v161 : Ref sig .tc := ⟨.hbm, 166, rfl⟩
abbrev main_v162 : Ref sig .tc := ⟨.hbm, 167, rfl⟩
abbrev main_v163 : Ref sig .tc := ⟨.hbm, 168, rfl⟩
abbrev main_v164 : Ref sig .tc := ⟨.hbm, 169, rfl⟩
abbrev main_v165 : Ref sig .tc := ⟨.hbm, 170, rfl⟩
abbrev main_v166 : Ref sig .tc := ⟨.hbm, 171, rfl⟩
abbrev main_v167 : Ref sig .tc := ⟨.hbm, 172, rfl⟩
abbrev main_v168 : Ref sig .tc := ⟨.hbm, 173, rfl⟩
abbrev main_v169 : Ref sig .tc := ⟨.hbm, 174, rfl⟩
abbrev main_v170 : Ref sig .tc := ⟨.hbm, 175, rfl⟩
abbrev main_v171 : Ref sig .tc := ⟨.hbm, 176, rfl⟩
abbrev main_v172 : Ref sig .tc := ⟨.hbm, 177, rfl⟩
abbrev main_v173 : Ref sig .tc := ⟨.hbm, 178, rfl⟩
abbrev main_v174 : Ref sig .tc := ⟨.hbm, 179, rfl⟩
abbrev main_v175 : Ref sig .tc := ⟨.hbm, 180, rfl⟩
abbrev main_v176 : Ref sig .tc := ⟨.hbm, 181, rfl⟩

abbrev nD : Nat := 1
abbrev τ : Topo := Topo.v7x

variable {F : FTy → Type} [FloatOps F]

class Facts₀ : Prop where
  pads_S4x32x384x768_S4x32x388x772_000_000_220_220 : S4x32x384x768.Pads (![0, 0, 2, 2] : Fin 4 → Nat) ![0, 0, 2, 2] ![0, 0, 0, 0] S4x32x388x772
  h_S_ : 0 < S_.numel
  bcast_S_S4x32x384x768 : S_.BroadcastsInDim S4x32x384x768 (![] : Fin 0 → Fin S4x32x384x768.rank)
  slices_S4x32x388x772_S4x32x384x768_0_0_0_0 : S4x32x388x772.Slices ![0, 0, 0, 0] S4x32x384x768
  slices_S4x25x384x768_S4x1x384x768_0_0_0_0 : S4x25x384x768.Slices ![0, 0, 0, 0] S4x1x384x768
  shapeCasts_S4x1x384x768_S4x384x768 : S4x1x384x768.ShapeCasts S4x384x768
  bcast_S4x384x768_S4x1x384x768_0_2_3 : S4x384x768.BroadcastsInDim S4x1x384x768 (![0, 2, 3] : Fin 3 → Fin S4x1x384x768.rank)
  bcast_S4x1x384x768_S4x32x384x768_0_1_2_3 : S4x1x384x768.BroadcastsInDim S4x32x384x768 (![0, 1, 2, 3] : Fin 4 → Fin S4x32x384x768.rank)
  slices_S4x32x388x772_S4x32x384x768_0_0_0_1 : S4x32x388x772.Slices ![0, 0, 0, 1] S4x32x384x768
  slices_S4x25x384x768_S4x1x384x768_0_1_0_0 : S4x25x384x768.Slices ![0, 1, 0, 0] S4x1x384x768
  slices_S4x32x388x772_S4x32x384x768_0_0_0_2 : S4x32x388x772.Slices ![0, 0, 0, 2] S4x32x384x768
  slices_S4x25x384x768_S4x1x384x768_0_2_0_0 : S4x25x384x768.Slices ![0, 2, 0, 0] S4x1x384x768
  slices_S4x32x388x772_S4x32x384x768_0_0_0_3 : S4x32x388x772.Slices ![0, 0, 0, 3] S4x32x384x768
  slices_S4x25x384x768_S4x1x384x768_0_3_0_0 : S4x25x384x768.Slices ![0, 3, 0, 0] S4x1x384x768
  slices_S4x32x388x772_S4x32x384x768_0_0_0_4 : S4x32x388x772.Slices ![0, 0, 0, 4] S4x32x384x768
  slices_S4x25x384x768_S4x1x384x768_0_4_0_0 : S4x25x384x768.Slices ![0, 4, 0, 0] S4x1x384x768
  slices_S4x32x388x772_S4x32x384x768_0_0_1_0 : S4x32x388x772.Slices ![0, 0, 1, 0] S4x32x384x768
  slices_S4x25x384x768_S4x1x384x768_0_5_0_0 : S4x25x384x768.Slices ![0, 5, 0, 0] S4x1x384x768
  slices_S4x32x388x772_S4x32x384x768_0_0_1_1 : S4x32x388x772.Slices ![0, 0, 1, 1] S4x32x384x768
  slices_S4x25x384x768_S4x1x384x768_0_6_0_0 : S4x25x384x768.Slices ![0, 6, 0, 0] S4x1x384x768
  slices_S4x32x388x772_S4x32x384x768_0_0_1_2 : S4x32x388x772.Slices ![0, 0, 1, 2] S4x32x384x768
  slices_S4x25x384x768_S4x1x384x768_0_7_0_0 : S4x25x384x768.Slices ![0, 7, 0, 0] S4x1x384x768
  slices_S4x32x388x772_S4x32x384x768_0_0_1_3 : S4x32x388x772.Slices ![0, 0, 1, 3] S4x32x384x768
  slices_S4x25x384x768_S4x1x384x768_0_8_0_0 : S4x25x384x768.Slices ![0, 8, 0, 0] S4x1x384x768
  slices_S4x32x388x772_S4x32x384x768_0_0_1_4 : S4x32x388x772.Slices ![0, 0, 1, 4] S4x32x384x768
  slices_S4x25x384x768_S4x1x384x768_0_9_0_0 : S4x25x384x768.Slices ![0, 9, 0, 0] S4x1x384x768
  slices_S4x32x388x772_S4x32x384x768_0_0_2_0 : S4x32x388x772.Slices ![0, 0, 2, 0] S4x32x384x768
  slices_S4x25x384x768_S4x1x384x768_0_10_0_0 : S4x25x384x768.Slices ![0, 10, 0, 0] S4x1x384x768
  slices_S4x32x388x772_S4x32x384x768_0_0_2_1 : S4x32x388x772.Slices ![0, 0, 2, 1] S4x32x384x768
  slices_S4x25x384x768_S4x1x384x768_0_11_0_0 : S4x25x384x768.Slices ![0, 11, 0, 0] S4x1x384x768
  slices_S4x32x388x772_S4x32x384x768_0_0_2_2 : S4x32x388x772.Slices ![0, 0, 2, 2] S4x32x384x768
  slices_S4x25x384x768_S4x1x384x768_0_12_0_0 : S4x25x384x768.Slices ![0, 12, 0, 0] S4x1x384x768
  slices_S4x32x388x772_S4x32x384x768_0_0_2_3 : S4x32x388x772.Slices ![0, 0, 2, 3] S4x32x384x768
  slices_S4x25x384x768_S4x1x384x768_0_13_0_0 : S4x25x384x768.Slices ![0, 13, 0, 0] S4x1x384x768
  slices_S4x32x388x772_S4x32x384x768_0_0_2_4 : S4x32x388x772.Slices ![0, 0, 2, 4] S4x32x384x768
  slices_S4x25x384x768_S4x1x384x768_0_14_0_0 : S4x25x384x768.Slices ![0, 14, 0, 0] S4x1x384x768
  slices_S4x32x388x772_S4x32x384x768_0_0_3_0 : S4x32x388x772.Slices ![0, 0, 3, 0] S4x32x384x768
  slices_S4x25x384x768_S4x1x384x768_0_15_0_0 : S4x25x384x768.Slices ![0, 15, 0, 0] S4x1x384x768
  slices_S4x32x388x772_S4x32x384x768_0_0_3_1 : S4x32x388x772.Slices ![0, 0, 3, 1] S4x32x384x768
  slices_S4x25x384x768_S4x1x384x768_0_16_0_0 : S4x25x384x768.Slices ![0, 16, 0, 0] S4x1x384x768
  slices_S4x32x388x772_S4x32x384x768_0_0_3_2 : S4x32x388x772.Slices ![0, 0, 3, 2] S4x32x384x768
  slices_S4x25x384x768_S4x1x384x768_0_17_0_0 : S4x25x384x768.Slices ![0, 17, 0, 0] S4x1x384x768
  slices_S4x32x388x772_S4x32x384x768_0_0_3_3 : S4x32x388x772.Slices ![0, 0, 3, 3] S4x32x384x768
  slices_S4x25x384x768_S4x1x384x768_0_18_0_0 : S4x25x384x768.Slices ![0, 18, 0, 0] S4x1x384x768
  slices_S4x32x388x772_S4x32x384x768_0_0_3_4 : S4x32x388x772.Slices ![0, 0, 3, 4] S4x32x384x768
  slices_S4x25x384x768_S4x1x384x768_0_19_0_0 : S4x25x384x768.Slices ![0, 19, 0, 0] S4x1x384x768
  slices_S4x32x388x772_S4x32x384x768_0_0_4_0 : S4x32x388x772.Slices ![0, 0, 4, 0] S4x32x384x768
  slices_S4x25x384x768_S4x1x384x768_0_20_0_0 : S4x25x384x768.Slices ![0, 20, 0, 0] S4x1x384x768
  slices_S4x32x388x772_S4x32x384x768_0_0_4_1 : S4x32x388x772.Slices ![0, 0, 4, 1] S4x32x384x768
  slices_S4x25x384x768_S4x1x384x768_0_21_0_0 : S4x25x384x768.Slices ![0, 21, 0, 0] S4x1x384x768
  slices_S4x32x388x772_S4x32x384x768_0_0_4_2 : S4x32x388x772.Slices ![0, 0, 4, 2] S4x32x384x768
  slices_S4x25x384x768_S4x1x384x768_0_22_0_0 : S4x25x384x768.Slices ![0, 22, 0, 0] S4x1x384x768
  slices_S4x32x388x772_S4x32x384x768_0_0_4_3 : S4x32x388x772.Slices ![0, 0, 4, 3] S4x32x384x768
  slices_S4x25x384x768_S4x1x384x768_0_23_0_0 : S4x25x384x768.Slices ![0, 23, 0, 0] S4x1x384x768
  slices_S4x32x388x772_S4x32x384x768_0_0_4_4 : S4x32x388x772.Slices ![0, 0, 4, 4] S4x32x384x768
  slices_S4x25x384x768_S4x1x384x768_0_24_0_0 : S4x25x384x768.Slices ![0, 24, 0, 0] S4x1x384x768

variable [Facts₀]

class Facts : Prop extends Facts₀ where

variable [Facts]
-- ==== Proof.Spec.lean ====
/-
  Local guided aggregation: the value both programs compute.

  The input x : [4, 32, 384, 768] is padded by two rows and two columns on every side of its last two axes,
  giving P : [4, 32, 388, 772]; the per-pixel tap weights are W : [4, 25, 384, 768]. At the result's index
  (n, c, h, w) the 25 taps k = 5·di + dj (di, dj = 0 … 4) are accumulated from zero in the order k = 0, 1, …, 24:

      acc₀ = 0,      acc_{k+1} = acc_k + P (n, c, h + di, w + dj) · W (n, k, h, w),

  and the result is acc₂₅. The kernel and the reference both build exactly this left-nested term: the same order
  of the additions, the same order of the two factors, the same zero. So the term is stated over any interpretation
  of the float operations, and no law of arithmetic is used to join the two sides: only where each factor is read.
-/
import Idealize.ShloMosaic.PureOps.Ideal

noncomputable section

namespace Lga

open Idealize.ShloMosaic

/-- The result's shape, the padded input's, the tap weights'. -/
abbrev SOut : Shape := ⟨4, ![4, 32, 384, 768]⟩
abbrev SPad : Shape := ⟨4, ![4, 32, 388, 772]⟩
abbrev SWts : Shape := ⟨4, ![4, 25, 384, 768]⟩

/-- The padded input's index (n, c, h + di, w + dj) over the result's index (n, c, h, w): a tap's neighbour. -/
def nbr (di dj : Nat) (hd : di ≤ 4 ∧ dj ≤ 4) (i : SOut.Idx) : SPad.Idx := fun a => match a with
  | ⟨0, _⟩ => ⟨(i 0).val, (i 0).isLt⟩
  | ⟨1, _⟩ => ⟨(i 1).val, (i 1).isLt⟩
  | ⟨2, _⟩ => ⟨(i 2).val + di, by have h : (i 2).val < 384 := (i 2).isLt; show (i 2).val + di < 388; omega⟩
  | ⟨3, _⟩ => ⟨(i 3).val + dj, by have h : (i 3).val < 768 := (i 3).isLt; show (i 3).val + dj < 772; omega⟩

/-- The weights' index (n, k, h, w) over the result's index (n, c, h, w): tap k's weight at the pixel. -/
def wgt (k : Nat) (hk : k < 25) (i : SOut.Idx) : SWts.Idx := fun a => match a with
  | ⟨0, _⟩ => ⟨(i 0).val, (i 0).isLt⟩
  | ⟨1, _⟩ => ⟨k, hk⟩
  | ⟨2, _⟩ => ⟨(i 2).val, (i 2).isLt⟩
  | ⟨3, _⟩ => ⟨(i 3).val, (i 3).isLt⟩

variable {F : FTy → Type} [FloatOps F]

/-- Tap k = 5·di + dj at the result's index i: the neighbour times the tap's weight, in this order. -/
def tap (P : SPad.Idx → F .f32) (W : SWts.Idx → F .f32) (i : SOut.Idx) (di dj k : Nat)
    (hd : di ≤ 4 ∧ dj ≤ 4 := by omega) (hk : k < 25 := by omega) : F .f32 :=
  FloatOps.mulf (P (nbr di dj hd i)) (W (wgt k hk i))

local infixl:65 " ⊞ " => FloatOps.addf

/-- The aggregation: the 25 taps added onto zero one after the other, rows of the 5×5 window first. -/
def G (P : SPad.Idx → F .f32) (W : SWts.Idx → F .f32) : SOut.Idx → F .f32 := fun i =>
    (FloatOps.ofBits .f32 0x00000000#32 : F .f32)
      ⊞ tap P W i 0 0 0
      ⊞ tap P W i 0 1 1
      ⊞ tap P W i 0 2 2
      ⊞ tap P W i 0 3 3
      ⊞ tap P W i 0 4 4
      ⊞ tap P W i 1 0 5
      ⊞ tap P W i 1 1 6
      ⊞ tap P W i 1 2 7
      ⊞ tap P W i 1 3 8
      ⊞ tap P W i 1 4 9
      ⊞ tap P W i 2 0 10
      ⊞ tap P W i 2 1 11
      ⊞ tap P W i 2 2 12
      ⊞ tap P W i 2 3 13
      ⊞ tap P W i 2 4 14
      ⊞ tap P W i 3 0 15
      ⊞ tap P W i 3 1 16
      ⊞ tap P W i 3 2 17
      ⊞ tap P W i 3 3 18
      ⊞ tap P W i 3 4 19
      ⊞ tap P W i 4 0 20
      ⊞ tap P W i 4 1 21
      ⊞ tap P W i 4 2 22
      ⊞ tap P W i 4 3 23
      ⊞ tap P W i 4 4 24

/-- One more tap on both sides: equal running sums and equal factors give equal running sums. -/
theorem tap_step {a a' p p' q q' : F .f32} (ha : a = a') (hp : p = p') (hq : q = q') :
    FloatOps.addf a (FloatOps.mulf p q) = FloatOps.addf a' (FloatOps.mulf p' q') := by
  rw [ha, hp, hq]

end Lga

end
-- ==== Proof.BodyValue.lean ====
/-
  What the kernel's body stores, at one index of its output block.

  At a grid point the body holds the point's padded block X0 : [1, 1, 388, 772] and weights block X1 : [1, 25, 384, 768].
  It reads X0 once as [1, 388, 772]; for tap k = 5·di + dj it reads slab k of X1 (a [1, 1, 384, 768] rectangle at offset
  (0, k, 0, 0)), drops and restores its unit axes, cuts the [1, 384, 768] window of X0 at offset (0, di, dj), multiplies the
  two and adds the product onto the sum so far, which starts at the zero splat; the last sum is stored as [1, 1, 384, 768].
  Read at the block's index (0, 0, r, s) every one of these is pointwise except the three re-layings, so the stored value
  is the 25-tap sum of X0 (0, 0, r + di, s + dj) · X1 (0, k, r, s): the specification's term, once X0 and X1 are known to be
  the pieces of two arrays around a result index.
-/
import proofs.«133670_j89395449299015_2_alg».proof.Proof.Gen.KernelIdeal.Frame
import proofs.«133670_j89395449299015_2_alg».proof.Proof.Spec
import Idealize.ShloMosaic.Lib.Pipeline.Value

noncomputable section

namespace Cert.KernelIdeal.Agg

open Cert.KernelIdeal Cert.KernelIdeal.Gen Idealize.ShloMosaic Idealize.ShloMosaic.TcCoe Idealize.SL.Sem

variable {F : FTy → Type} [FloatOps F]

/-- The zero offsets of a whole-block access. -/
theorem hz : (![0, 0, 0, 0] : Fin 4 → Nat) = fun _ => 0 := funext fun a => by fin_cases a <;> rfl

/-- The padded block seen as [1, 388, 772] and sliced from (0, di, dj), read at (0, r, s), is the block's entry
    (0, 0, r + di, s + dj). -/
theorem slice_at (X0 : Vec F S1x1x388x772 .f32) (di dj : Nat) (h : S1x388x772.Slices ![0, di, dj] S1x384x768)
    (z : S1x384x768.Idx) (x : S1x1x388x772.Idx)
    (hx2 : (x 2).val = (z 1).val + di) (hx3 : (x 3).val = (z 2).val + dj) :
    extractStridedSlice S1x384x768 ![0, di, dj] (k0_pay2 (View.ld X0 r0_0)) h z = X0 x := by
  have hx0 : (x 0).val < 1 := (x 0).isLt
  have hx1 : (x 1).val < 1 := (x 1).isLt
  have hz0 : (z 0).val < 1 := (z 0).isLt
  unfold k0_pay2
  rw [View.ld_unit_zero (S := S1x1x388x772) hz]
  refine (extractStridedSlice_apply ![0, di, dj] _ h z
    (fun a => match a with
      | ⟨0, _⟩ => ⟨0, Nat.one_pos⟩
      | ⟨1, _⟩ => ⟨(x 2).val, (x 2).isLt⟩
      | ⟨2, _⟩ => ⟨(x 3).val, (x 3).isLt⟩ : S1x388x772.Idx) ?_).trans ?_
  · intro a
    match a with
    | ⟨0, _⟩ => show 0 = 0 + (z 0).val; omega
    | ⟨1, _⟩ => show (x 2).val = di + (z 1).val; omega
    | ⟨2, _⟩ => show (x 3).val = dj + (z 2).val; omega
  · refine shapeCast_apply _ _ _ x ?_
    rw [Shape.rowMajor_val_four, Shape.rowMajor_val_three]
    show (((x 0).val * 1 + (x 1).val) * 388 + (x 2).val) * 772 + (x 3).val = (0 * 388 + (x 2).val) * 772 + (x 3).val
    omega

/-- A tap's weight slab [1, 1, 384, 768] seen as [384, 768] and then as [1, 384, 768], read at (0, r, s), is the
    slab's entry (0, 0, r, s). -/
theorem weight_at (wv : Vec F S1x1x384x768 .f32) (z : S1x384x768.Idx) (x : S1x1x384x768.Idx)
    (hx2 : (x 2).val = (z 1).val) (hx3 : (x 3).val = (z 2).val) :
    shapeCast S1x384x768 (shapeCast S384x768 wv shapeCasts_S1x1x384x768_S384x768) shapeCasts_S384x768_S1x384x768 z = wv x := by
  have hx0 : (x 0).val < 1 := (x 0).isLt
  have hx1 : (x 1).val < 1 := (x 1).isLt
  have hz0 : (z 0).val < 1 := (z 0).isLt
  refine (shapeCast_apply _ _ z
    (fun a => match a with
      | ⟨0, _⟩ => ⟨(x 2).val, (x 2).isLt⟩
      | ⟨1, _⟩ => ⟨(x 3).val, (x 3).isLt⟩ : S384x768.Idx) ?_).trans (shapeCast_apply _ _ _ x ?_)
  · rw [Shape.rowMajor_val_two, Shape.rowMajor_val_three]
    show (x 2).val * 768 + (x 3).val = ((z 0).val * 384 + (z 1).val) * 768 + (z 2).val
    omega
  · rw [Shape.rowMajor_val_four, Shape.rowMajor_val_two]
    show (((x 0).val * 1 + (x 1).val) * 384 + (x 2).val) * 768 + (x 3).val = (x 2).val * 768 + (x 3).val
    omega

/-- The padded block's index (0, 0, r + di, s + dj) over the output block's index (0, 0, r, s). -/
def padIdx (y : S1x1x384x768.Idx) (di dj : Nat) (hd : di ≤ 4 ∧ dj ≤ 4) : S1x1x388x772.Idx := fun a => match a with
  | ⟨0, _⟩ => ⟨0, Nat.one_pos⟩
  | ⟨1, _⟩ => ⟨0, Nat.one_pos⟩
  | ⟨2, _⟩ => ⟨(y 2).val + di, by have h : (y 2).val < 384 := (y 2).isLt; show (y 2).val + di < 388; omega⟩
  | ⟨3, _⟩ => ⟨(y 3).val + dj, by have h : (y 3).val < 768 := (y 3).isLt; show (y 3).val + dj < 772; omega⟩

/-- WHAT THE BODY STORES at the output block's index y = (0, 0, r, s), for ANY padded block X0 and weights block X1
    that are the pieces of arrays P and W around the result's index i — X0 at (0, 0, r + di, s + dj) is P at i's
    (di, dj)-neighbour, slab k of X1 at y is W at tap k of i —: the aggregation at i. -/
theorem stored_at (X0 : Vec F S1x1x388x772 .f32) (X1 : Vec F S1x25x384x768 .f32) (y : S1x1x384x768.Idx)
    (P : Lga.SPad.Idx → F .f32) (W : Lga.SWts.Idx → F .f32) (i : Lga.SOut.Idx)
    (hP : ∀ (di dj : Nat) (hd : di ≤ 4 ∧ dj ≤ 4), X0 (padIdx y di dj hd) = P (Lga.nbr di dj hd i))
    (hW : ∀ (k : Nat) (hk : k < 25) (inb),
      View.ld X1 (Rect.unit (s := S1x25x384x768) ![0, k, 0, 0] S1x1x384x768.size inb) y = W (Lga.wgt k hk i)) :
    out0_2 X0 X1 y = Lga.G P W i := by
  have hy0 : (y 0).val < 1 := (y 0).isLt
  have hy1 : (y 1).val < 1 := (y 1).isLt
  unfold out0_2
  rw [View.canon_unit_zero hz]
  unfold k0_pay1
  refine (shapeCast_apply _ _ y
    (fun a => match a with
      | ⟨0, _⟩ => ⟨0, Nat.one_pos⟩
      | ⟨1, _⟩ => ⟨(y 2).val, (y 2).isLt⟩
      | ⟨2, _⟩ => ⟨(y 3).val, (y 3).isLt⟩ : S1x384x768.Idx) ?_).trans ?_
  · rw [Shape.rowMajor_val_three, Shape.rowMajor_val_four]
    show (0 * 384 + (y 2).val) * 768 + (y 3).val = (((y 0).val * 1 + (y 1).val) * 384 + (y 2).val) * 768 + (y 3).val
    omega
  unfold Lga.G
  refine (Lga.tap_step (Lga.tap_step (Lga.tap_step (Lga.tap_step (Lga.tap_step (Lga.tap_step (Lga.tap_step (Lga.tap_step (Lga.tap_step (Lga.tap_step (Lga.tap_step (Lga.tap_step (Lga.tap_step (Lga.tap_step (Lga.tap_step (Lga.tap_step (Lga.tap_step (Lga.tap_step (Lga.tap_step (Lga.tap_step (Lga.tap_step (Lga.tap_step (Lga.tap_step (Lga.tap_step (Lga.tap_step rfl ?_ ?_) ?_ ?_) ?_ ?_) ?_ ?_) ?_ ?_) ?_ ?_) ?_ ?_) ?_ ?_) ?_ ?_) ?_ ?_) ?_ ?_) ?_ ?_) ?_ ?_) ?_ ?_) ?_ ?_) ?_ ?_) ?_ ?_) ?_ ?_) ?_ ?_) ?_ ?_) ?_ ?_) ?_ ?_) ?_ ?_) ?_ ?_) ?_ ?_)
  all_goals first
    | exact (slice_at X0 _ _ _ _ (padIdx y _ _ _) rfl rfl).trans (hP _ _ _)
    | exact (weight_at _ _ y rfl rfl).trans (hW _ _ _)

end Cert.KernelIdeal.Agg

end
-- ==== Proof.KernelRun.lean ====
/-
  The kernel's run, read: its result array is the aggregation of the padded first argument and the second.

  Before the region @main pads the first argument (by the integer zero converted to a float) into the buffer the
  first window stages. The grid is 4 × 32: point (n, c) takes block (n, c, 0, 0) of the padded array — all 388 × 772 of
  channel c of batch n —, block (n, 0, 0, 0) of the weights — all 25 taps of batch n —, and writes block (n, c, 0, 0) of the
  result. So an entry (0, 0, r, s) of a point's padded block is the padded array at (n, c, r, s), slab k of its weights
  block at (0, 0, r, s) is the weights at (n, k, r, s), and what the point writes back is block (n, c) of the
  aggregation. The 128 blocks tile the result, so the result array ends as the aggregation.
-/
import proofs.«133670_j89395449299015_2_alg».proof.Proof.BodyValue
import Idealize.ShloMosaic.Lib.StableHlo.Run
import Idealize.ShloMosaic.Lib.Tactic

noncomputable section

namespace Cert.KernelIdeal.Agg

open Cert.KernelIdeal Cert.KernelIdeal.Gen Idealize.ShloMosaic Idealize.ShloMosaic.TcCoe Idealize.SL.Sem
open Idealize.ShloMosaic.Pipeline (Dat)

variable {F : FTy → Type} [FloatOps F]

variable (m : (ℓ : Loc nD τ sig) → Buf (Elt F) ℓ) (ρ : Dev nD → PrngReg)

/-- The input padded with the converted integer zero: what @main's call of the padding function leaves. -/
abbrev padded (x : S4x32x384x768.Idx → Elt F .f32) : S4x32x388x772.Idx → Elt F .f32 :=
  pad S4x32x388x772 ![0, 0, 2, 2] ![0, 0, 2, 2] ![0, 0, 0, 0] x (sitofp .f32 (constantI S_ 32 0#32) : FVec F S_ .f32)
    pads_S4x32x384x768_S4x32x388x772_000_000_220_220 h_S_

/-- When the region is entered the padded buffer holds the padded input. -/
theorem V_padded (c : Dev nD) :
    (V m c main_v0 : S4x32x388x772.Idx → Elt F .f32) = padded (m ((c : Thread nD τ).loc main_arg0)) := by
  dsimp only [Gen.V]
  simp only [Gen.hostOps0, Gen.hostOps0_1, List.flatten_cons, List.flatten_nil, List.append_nil, List.cons_append,
    List.nil_append]
  after_results
  rfl

/-- The printed index maps over the 128 grid points: point t = (n, c) takes block (n, c, 0, 0) of the padded input
    and of the result, and block (n, 0, 0, 0) of the weights. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = win0_2.index t (0 : Fin 4) ∧ win0_1.index t (1 : Fin 4) = 0
    ∧ win0_1.index t (2 : Fin 4) = 0 ∧ win0_1.index t (3 : Fin 4) = 0
    ∧ win0_2.index t (2 : Fin 4) = 0 ∧ win0_2.index t (3 : Fin 4) = 0
    ∧ win0_2.index t (0 : Fin 4) < 4 ∧ win0_2.index t (1 : Fin 4) < 32 :=
  (by decide +kernel : ∀ t : Fin grid0.N, _)

/-- Every (n, c) is some grid point's. -/
theorem idx_onto : ∀ (q0 : Fin 4) (q1 : Fin 32), ∃ t : Fin cfg0.N, win0_2.index t = ![q0.val, q1.val, 0, 0] :=
  (by decide +kernel : ∀ (q0 : Fin 4) (q1 : Fin 32), ∃ t : Fin grid0.N, win0_2.index t = ![q0.val, q1.val, 0, 0])

/-- The padded-input block at point t = (n, c), read at (0, 0, r, s), is the padded array at (n, c, r, s). -/
theorem pad_block_apply (c : Dev nD) (t : Fin cfg0.N) (x : S1x1x388x772.Idx) (q : S4x32x388x772.Idx)
    (h0 : (q 0).val = win0_2.index t (0 : Fin 4)) (h1 : (q 1).val = win0_2.index t (1 : Fin 4))
    (h2 : (q 2).val = (x 2).val) (h3 : (q 3).val = (x 3).val) :
    iblk m c 0 t x = (V m c main_v0 : S4x32x388x772.Idx → Elt F .f32) q := by
  obtain ⟨e0, e1, e2, e3, -⟩ := idx_facts t
  have hx0 : (x 0).val < 1 := (x 0).isLt
  have hx1 : (x 1).val < 1 := (x 1).isLt
  unfold iblk
  rw [View.read_apply]
  show (V m c main_v0 : S4x32x388x772.Idx → Elt F .f32) _ = (V m c main_v0 : S4x32x388x772.Idx → Elt F .f32) q
  congr 1
  funext a
  apply Fin.ext
  match a with
  | ⟨0, _⟩ => show win0_0.index t (0 : Fin 4) * 1 + 1 * (x 0).val = (q 0).val; omega
  | ⟨1, _⟩ => show win0_0.index t (1 : Fin 4) * 1 + 1 * (x 1).val = (q 1).val; omega
  | ⟨2, _⟩ => show win0_0.index t (2 : Fin 4) * 388 + 1 * (x 2).val = (q 2).val; omega
  | ⟨3, _⟩ => show win0_0.index t (3 : Fin 4) * 772 + 1 * (x 3).val = (q 3).val; omega

/-- The weights block at point t = (n, c), read at (0, k, r, s), is the weights array at (n, k, r, s). -/
theorem wts_block_apply (c : Dev nD) (t : Fin cfg0.N) (x : S1x25x384x768.Idx) (q : S4x25x384x768.Idx)
    (h0 : (q 0).val = win0_2.index t (0 : Fin 4)) (h1 : (q 1).val = (x 1).val)
    (h2 : (q 2).val = (x 2).val) (h3 : (q 3).val = (x 3).val) :
    iblk m c 1 t x = (V m c main_arg1 : S4x25x384x768.Idx → Elt F .f32) q := by
  obtain ⟨-, -, -, -, e0, e1, e2, e3, -⟩ := idx_facts t
  have hx0 : (x 0).val < 1 := (x 0).isLt
  unfold iblk
  rw [View.read_apply]
  show (V m c main_arg1 : S4x25x384x768.Idx → Elt F .f32) _ = (V m c main_arg1 : S4x25x384x768.Idx → Elt F .f32) q
  congr 1
  funext a
  apply Fin.ext
  match a with
  | ⟨0, _⟩ => show win0_1.index t (0 : Fin 4) * 1 + 1 * (x 0).val = (q 0).val; omega
  | ⟨1, _⟩ => show win0_1.index t (1 : Fin 4) * 25 + 1 * (x 1).val = (q 1).val; omega
  | ⟨2, _⟩ => show win0_1.index t (2 : Fin 4) * 384 + 1 * (x 2).val = (q 2).val; omega
  | ⟨3, _⟩ => show win0_1.index t (3 : Fin 4) * 768 + 1 * (x 3).val = (q 3).val; omega

/-- Slab k of the weights block at point t = (n, c), read at (0, 0, r, s), is the weights array at tap k of the
    result's index (n, c, r, s). -/
theorem slab_apply (c : Dev nD) (t : Fin cfg0.N) (k : Nat) (hk : k < 25) (inb)
    (y : S1x1x384x768.Idx) (i : S4x32x384x768.Idx)
    (hi0 : (i 0).val = win0_2.index t (0 : Fin 4)) (hi2 : (i 2).val = (y 2).val) (hi3 : (i 3).val = (y 3).val) :
    View.ld (iblk m c 1 t) (Rect.unit (s := S1x25x384x768) ![0, k, 0, 0] S1x1x384x768.size inb) y
      = (V m c main_arg1 : S4x25x384x768.Idx → Elt F .f32) (Lga.wgt k hk i) := by
  have hy0 : (y 0).val < 1 := (y 0).isLt
  have hy1 : (y 1).val < 1 := (y 1).isLt
  refine wts_block_apply m c t _ _ hi0 ?_ ?_ ?_
  · show k = k + 1 * (y 1).val; omega
  · show (i 2).val = 0 + 1 * (y 2).val; omega
  · show (i 3).val = 0 + 1 * (y 3).val; omega

/-- What the body stores at point t = (n, c), at the block's index (0, 0, r, s): the aggregation of the padded
    array and the weights array, as the region finds them, at (n, c, r, s). -/
theorem stored_block (c : Dev nD) (t : Fin cfg0.N) (y : S1x1x384x768.Idx) (i : S4x32x384x768.Idx)
    (hi0 : (i 0).val = win0_2.index t (0 : Fin 4)) (hi1 : (i 1).val = win0_2.index t (1 : Fin 4))
    (hi2 : (i 2).val = (y 2).val) (hi3 : (i 3).val = (y 3).val) :
    out0_2 (iblk m c 0 t) (iblk m c 1 t) y
      = Lga.G (V m c main_v0 : S4x32x388x772.Idx → Elt F .f32) (V m c main_arg1 : S4x25x384x768.Idx → Elt F .f32) i :=
  stored_at (iblk m c 0 t) (iblk m c 1 t) y _ _ i
    (fun di dj hd => pad_block_apply m c t _ _ hi0 hi1
      (by show (i 2).val + di = (y 2).val + di; omega) (by show (i 3).val + dj = (y 3).val + dj; omega))
    (fun k hk inb => slab_apply m c t k hk inb y i hi0 hi2 hi3)

/-- WHAT POINT t WRITES BACK is block t of the aggregation of the arrays as the region finds them. -/
theorem flushed_eq (c : Dev nD) (t : Fin cfg0.N) :
    (dats m 0 c).flushed 2 t = ((cfg0.win 2).blk t).view.read (Elt F)
      (Lga.G (V m c main_v0 : S4x32x388x772.Idx → Elt F .f32) (V m c main_arg1 : S4x25x384x768.Idx → Elt F .f32)) := by
  obtain ⟨-, -, -, -, -, -, -, -, e2, e3, -⟩ := idx_facts t
  show (cfg0.win 2).cut (grid0.coords t) ((dats m 0 c).after 2 t) = _
  rw [after0_2]
  funext j
  have hj0 : (j 0).val < 1 := (j 0).isLt
  have hj1 : (j 1).val < 1 := (j 1).isLt
  rw [View.read_apply]
  refine stored_block m c t ((cfg0.win 2).xinj (grid0.coords t) j) (((cfg0.win 2).blk t).view.emb j) ?_ ?_ ?_ ?_
  · show win0_2.index t (0 : Fin 4) * 1 + 1 * (j 0).val = win0_2.index t (0 : Fin 4); omega
  · show win0_2.index t (1 : Fin 4) * 1 + 1 * (j 1).val = win0_2.index t (1 : Fin 4); omega
  · show win0_2.index t (2 : Fin 4) * 384 + 1 * (j 2).val = (j 2).val; omega
  · show win0_2.index t (3 : Fin 4) * 768 + 1 * (j 3).val = (j 3).val; omega

/-- An index of the result is in point t's block iff each coordinate is in the block's range on its axis. -/
theorem mem_blk (t : Fin cfg0.N) (i : S4x32x384x768.Idx) :
    i ∈ ((cfg0.win 2).blk t).view.set ↔ ∀ a : Fin 4, win0_2.index t a * S1x1x384x768.size a ≤ (i a).val
      ∧ (i a).val < win0_2.index t a * S1x1x384x768.size a + S1x1x384x768.size a := by
  show i ∈ ((View.whole main_v1).slice (win0_2.rect t)).set ↔ _
  rw [View.set_slice_whole, Rect.mem_set_unit]
  exact Iff.rfl

/-- The 128 blocks cover the result: (n, c, h, w) lies in the block of the point (n, c). -/
theorem covered (i : S4x32x384x768.Idx) :
    ∃ t : Fin cfg0.N, (cfg0.win 2).flush t = true ∧ i ∈ ((cfg0.win 2).blk t).view.set := by
  have hi0 : (i 0).val < 4 := (i 0).isLt
  have hi1 : (i 1).val < 32 := (i 1).isLt
  have hi2 : (i 2).val < 384 := (i 2).isLt
  have hi3 : (i 3).val < 768 := (i 3).isLt
  obtain ⟨t, ht⟩ := idx_onto ⟨(i 0).val, hi0⟩ ⟨(i 1).val, hi1⟩
  have q0 : win0_2.index t (0 : Fin 4) = (i 0).val := congrFun ht 0
  have q1 : win0_2.index t (1 : Fin 4) = (i 1).val := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 384 ≤ (i 2).val ∧ (i 2).val < win0_2.index t (2 : Fin 4) * 384 + 384; omega
  | ⟨3, _⟩ => show win0_2.index t (3 : Fin 4) * 768 ≤ (i 3).val ∧ (i 3).val < win0_2.index t (3 : Fin 4) * 768 + 768; omega

/-- THE RESULT ARRAY after the run: the aggregation of the padded input and the weights. -/
theorem final (c : Dev nD) : (dats m 0 c).arrAt 2 cfg0.N
    = Lga.G (padded (m ((c : Thread nD τ).loc main_arg0))) (m ((c : Thread nD τ).loc main_arg1) : S4x25x384x768.Idx → Elt F .f32) := by
  rw [(dats m 0 c).arrAt_eq_of_cover 2 _ (fun t _ => flushed_eq m c t) covered, V_padded, V_main_arg1]

/-- The kernel's run, read: every weakly fair execution ends with the result buffer at the aggregation of the padded
    first argument and the second, and the arguments as launched. -/
theorem run : θ_run defs (onTc (τ := τ) (main (F := F))) ⟨m, fun _ => 0, ρ⟩ fun r => ∀ c : Dev nD,
      r.2.mem ((c : Thread nD τ).loc main_v1)
        = Lga.G (padded (m ((c : Thread nD τ).loc main_arg0))) (m ((c : Thread nD τ).loc main_arg1) : S4x25x384x768.Idx → Elt F .f32)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c)))⟩)
    (run_main m ρ)

end Cert.KernelIdeal.Agg

end
-- ==== Proof.RefRun.lean ====
/-
  The reference's run, read: @main leaves the 25 taps added onto zero, as whole arrays, in its result buffer.

  @main is a straight line of 180 host operations: the integer zero and the called padding function's two operations
  (the zero converted, the first argument padded by two rows and two columns on every side), the float zero and its
  broadcast — the sum's start —, and then 25 times the same seven operations: the window of the padded array at offset
  (0, 0, di, dj); slab k = 5·di + dj of the second argument, reshaped and broadcast back over the channels; their product;
  the sum so far plus the product. Every buffer is written once, so the fold of the operations over the launch contents,
  read at the last sum's buffer, is the 25 steps composed, and at an argument's buffer is the argument.
-/
import proofs.«133670_j89395449299015_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- One tap's weights as the host lays them out: slab k of the weights cut out as [4, 1, 384, 768], its unit axis
    dropped, and the result broadcast back over the channel axis to [4, 32, 384, 768]. -/
def hostWeights (W : S4x25x384x768.Idx → Elt F .f32) (k : Nat) (h' : S4x25x384x768.Slices ![0, k, 0, 0] S4x1x384x768) :
    S4x32x384x768.Idx → Elt F .f32 :=
  broadcastInDim S4x32x384x768 ![0, 1, 2, 3] bcast_S4x1x384x768_S4x32x384x768_0_1_2_3
    (broadcastInDim S4x1x384x768 ![0, 2, 3] bcast_S4x384x768_S4x1x384x768_0_2_3
      (shapeCast S4x384x768 (extractStridedSlice S4x1x384x768 ![0, k, 0, 0] W h') shapeCasts_S4x1x384x768_S4x384x768))

/-- One tap added onto the running sum, as whole arrays: the padded array's window from (0, 0, di, dj) times the
    tap's weights. -/
def hostStep (Pd : S4x32x388x772.Idx → Elt F .f32) (W : S4x25x384x768.Idx → Elt F .f32) (A : S4x32x384x768.Idx → Elt F .f32)
    (di dj k : Nat) (h : S4x32x388x772.Slices ![0, 0, di, dj] S4x32x384x768)
    (h' : S4x25x384x768.Slices ![0, k, 0, 0] S4x1x384x768) : S4x32x384x768.Idx → Elt F .f32 :=
  addf A (mulf (extractStridedSlice S4x32x384x768 ![0, 0, di, dj] Pd h) (hostWeights W k h'))

/-- The seven host operations of one tap: the padded array's window into `s`; the tap's weights through `p`, `r`,
    `b1` into `b2`; their product into `q`; the running sum `acc` plus it into `o`. -/
abbrev tapOps (pd : TRef sig ⟨S4x32x388x772, .f32⟩) (w : TRef sig ⟨S4x25x384x768, .f32⟩)
    (acc s : TRef sig ⟨S4x32x384x768, .f32⟩) (p : TRef sig ⟨S4x1x384x768, .f32⟩) (r : TRef sig ⟨S4x384x768, .f32⟩)
    (b1 : TRef sig ⟨S4x1x384x768, .f32⟩) (b2 q o : TRef sig ⟨S4x32x384x768, .f32⟩) (di dj k : Nat)
    (h : S4x32x388x772.Slices ![0, 0, di, dj] S4x32x384x768) (h' : S4x25x384x768.Slices ![0, k, 0, 0] S4x1x384x768) :
    List (HloOp τ sig (Elt F)) :=
  [ TRef.unary pd s (extractStridedSlice S4x32x384x768 ![0, 0, di, dj] · h),
    TRef.unary w p (extractStridedSlice S4x1x384x768 ![0, k, 0, 0] · h'),
    TRef.reshape p r rfl shapeCasts_S4x1x384x768_S4x384x768,
    TRef.unary r b1 (broadcastInDim S4x1x384x768 ![0, 2, 3] bcast_S4x384x768_S4x1x384x768_0_2_3),
    TRef.unary b1 b2 (broadcastInDim S4x32x384x768 ![0, 1, 2, 3] bcast_S4x1x384x768_S4x32x384x768_0_1_2_3),
    TRef.binary s b2 q mulf,
    TRef.binary acc q o addf ]

/-- The operations before the first tap: the integer zero, its conversion and the padding (the called function's two
    operations at the call's buffers), the float zero and its broadcast, the running sum's start. -/
abbrev preOps : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S4x32x384x768, .f32⟩) main_arg0) (TRef.of (T := ⟨S_, .f32⟩) main_call0_v0)
      (TRef.of (T := ⟨S4x32x388x772, .f32⟩) main_v0)
      (fun x v => pad S4x32x388x772 ![0, 0, 2, 2] ![0, 0, 2, 2] ![0, 0, 0, 0] x v pads_S4x32x384x768_S4x32x388x772_000_000_220_220 h_S_),
    nullary main_cst (constant S_ .f32 0x00000000#32),
    unary main_cst main_v1 (broadcastInDim S4x32x384x768 ![] bcast_S_S4x32x384x768 :
      (⟨S_, .f32⟩ : BufTy).Contents (Elt F) → (⟨S4x32x384x768, .f32⟩ : BufTy).Contents (Elt F)) ]

/-- @main's 180 operations, in order: the prefix, then the 25 taps, each reading the padded array, the weights and the
    sum so far. -/
abbrev ops : List (HloOp τ sig (Elt F)) :=
  preOps
    ++ (tapOps (.of main_v0) (.of main_arg1) (.of main_v1) (.of main_v2) (.of main_v3) (.of main_v4) (.of main_v5) (.of main_v6) (.of main_v7) (.of main_v8) 0 0 0 slices_S4x32x388x772_S4x32x384x768_0_0_0_0 slices_S4x25x384x768_S4x1x384x768_0_0_0_0
    ++ (tapOps (.of main_v0) (.of main_arg1) (.of main_v8) (.of main_v9) (.of main_v10) (.of main_v11) (.of main_v12) (.of main_v13) (.of main_v14) (.of main_v15) 0 1 1 slices_S4x32x388x772_S4x32x384x768_0_0_0_1 slices_S4x25x384x768_S4x1x384x768_0_1_0_0
    ++ (tapOps (.of main_v0) (.of main_arg1) (.of main_v15) (.of main_v16) (.of main_v17) (.of main_v18) (.of main_v19) (.of main_v20) (.of main_v21) (.of main_v22) 0 2 2 slices_S4x32x388x772_S4x32x384x768_0_0_0_2 slices_S4x25x384x768_S4x1x384x768_0_2_0_0
    ++ (tapOps (.of main_v0) (.of main_arg1) (.of main_v22) (.of main_v23) (.of main_v24) (.of main_v25) (.of main_v26) (.of main_v27) (.of main_v28) (.of main_v29) 0 3 3 slices_S4x32x388x772_S4x32x384x768_0_0_0_3 slices_S4x25x384x768_S4x1x384x768_0_3_0_0
    ++ (tapOps (.of main_v0) (.of main_arg1) (.of main_v29) (.of main_v30) (.of main_v31) (.of main_v32) (.of main_v33) (.of main_v34) (.of main_v35) (.of main_v36) 0 4 4 slices_S4x32x388x772_S4x32x384x768_0_0_0_4 slices_S4x25x384x768_S4x1x384x768_0_4_0_0
    ++ (tapOps (.of main_v0) (.of main_arg1) (.of main_v36) (.of main_v37) (.of main_v38) (.of main_v39) (.of main_v40) (.of main_v41) (.of main_v42) (.of main_v43) 1 0 5 slices_S4x32x388x772_S4x32x384x768_0_0_1_0 slices_S4x25x384x768_S4x1x384x768_0_5_0_0
    ++ (tapOps (.of main_v0) (.of main_arg1) (.of main_v43) (.of main_v44) (.of main_v45) (.of main_v46) (.of main_v47) (.of main_v48) (.of main_v49) (.of main_v50) 1 1 6 slices_S4x32x388x772_S4x32x384x768_0_0_1_1 slices_S4x25x384x768_S4x1x384x768_0_6_0_0
    ++ (tapOps (.of main_v0) (.of main_arg1) (.of main_v50) (.of main_v51) (.of main_v52) (.of main_v53) (.of main_v54) (.of main_v55) (.of main_v56) (.of main_v57) 1 2 7 slices_S4x32x388x772_S4x32x384x768_0_0_1_2 slices_S4x25x384x768_S4x1x384x768_0_7_0_0
    ++ (tapOps (.of main_v0) (.of main_arg1) (.of main_v57) (.of main_v58) (.of main_v59) (.of main_v60) (.of main_v61) (.of main_v62) (.of main_v63) (.of main_v64) 1 3 8 slices_S4x32x388x772_S4x32x384x768_0_0_1_3 slices_S4x25x384x768_S4x1x384x768_0_8_0_0
    ++ (tapOps (.of main_v0) (.of main_arg1) (.of main_v64) (.of main_v65) (.of main_v66) (.of main_v67) (.of main_v68) (.of main_v69) (.of main_v70) (.of main_v71) 1 4 9 slices_S4x32x388x772_S4x32x384x768_0_0_1_4 slices_S4x25x384x768_S4x1x384x768_0_9_0_0
    ++ (tapOps (.of main_v0) (.of main_arg1) (.of main_v71) (.of main_v72) (.of main_v73) (.of main_v74) (.of main_v75) (.of main_v76) (.of main_v77) (.of main_v78) 2 0 10 slices_S4x32x388x772_S4x32x384x768_0_0_2_0 slices_S4x25x384x768_S4x1x384x768_0_10_0_0
    ++ (tapOps (.of main_v0) (.of main_arg1) (.of main_v78) (.of main_v79) (.of main_v80) (.of main_v81) (.of main_v82) (.of main_v83) (.of main_v84) (.of main_v85) 2 1 11 slices_S4x32x388x772_S4x32x384x768_0_0_2_1 slices_S4x25x384x768_S4x1x384x768_0_11_0_0
    ++ (tapOps (.of main_v0) (.of main_arg1) (.of main_v85) (.of main_v86) (.of main_v87) (.of main_v88) (.of main_v89) (.of main_v90) (.of main_v91) (.of main_v92) 2 2 12 slices_S4x32x388x772_S4x32x384x768_0_0_2_2 slices_S4x25x384x768_S4x1x384x768_0_12_0_0
    ++ (tapOps (.of main_v0) (.of main_arg1) (.of main_v92) (.of main_v93) (.of main_v94) (.of main_v95) (.of main_v96) (.of main_v97) (.of main_v98) (.of main_v99) 2 3 13 slices_S4x32x388x772_S4x32x384x768_0_0_2_3 slices_S4x25x384x768_S4x1x384x768_0_13_0_0
    ++ (tapOps (.of main_v0) (.of main_arg1) (.of main_v99) (.of main_v100) (.of main_v101) (.of main_v102) (.of main_v103) (.of main_v104) (.of main_v105) (.of main_v106) 2 4 14 slices_S4x32x388x772_S4x32x384x768_0_0_2_4 slices_S4x25x384x768_S4x1x384x768_0_14_0_0
    ++ (tapOps (.of main_v0) (.of main_arg1) (.of main_v106) (.of main_v107) (.of main_v108) (.of main_v109) (.of main_v110) (.of main_v111) (.of main_v112) (.of main_v113) 3 0 15 slices_S4x32x388x772_S4x32x384x768_0_0_3_0 slices_S4x25x384x768_S4x1x384x768_0_15_0_0
    ++ (tapOps (.of main_v0) (.of main_arg1) (.of main_v113) (.of main_v114) (.of main_v115) (.of main_v116) (.of main_v117) (.of main_v118) (.of main_v119) (.of main_v120) 3 1 16 slices_S4x32x388x772_S4x32x384x768_0_0_3_1 slices_S4x25x384x768_S4x1x384x768_0_16_0_0
    ++ (tapOps (.of main_v0) (.of main_arg1) (.of main_v120) (.of main_v121) (.of main_v122) (.of main_v123) (.of main_v124) (.of main_v125) (.of main_v126) (.of main_v127) 3 2 17 slices_S4x32x388x772_S4x32x384x768_0_0_3_2 slices_S4x25x384x768_S4x1x384x768_0_17_0_0
    ++ (tapOps (.of main_v0) (.of main_arg1) (.of main_v127) (.of main_v128) (.of main_v129) (.of main_v130) (.of main_v131) (.of main_v132) (.of main_v133) (.of main_v134) 3 3 18 slices_S4x32x388x772_S4x32x384x768_0_0_3_3 slices_S4x25x384x768_S4x1x384x768_0_18_0_0
    ++ (tapOps (.of main_v0) (.of main_arg1) (.of main_v134) (.of main_v135) (.of main_v136) (.of main_v137) (.of main_v138) (.of main_v139) (.of main_v140) (.of main_v141) 3 4 19 slices_S4x32x388x772_S4x32x384x768_0_0_3_4 slices_S4x25x384x768_S4x1x384x768_0_19_0_0
    ++ (tapOps (.of main_v0) (.of main_arg1) (.of main_v141) (.of main_v142) (.of main_v143) (.of main_v144) (.of main_v145) (.of main_v146) (.of main_v147) (.of main_v148) 4 0 20 slices_S4x32x388x772_S4x32x384x768_0_0_4_0 slices_S4x25x384x768_S4x1x384x768_0_20_0_0
    ++ (tapOps (.of main_v0) (.of main_arg1) (.of main_v148) (.of main_v149) (.of main_v150) (.of main_v151) (.of main_v152) (.of main_v153) (.of main_v154) (.of main_v155) 4 1 21 slices_S4x32x388x772_S4x32x384x768_0_0_4_1 slices_S4x25x384x768_S4x1x384x768_0_21_0_0
    ++ (tapOps (.of main_v0) (.of main_arg1) (.of main_v155) (.of main_v156) (.of main_v157) (.of main_v158) (.of main_v159) (.of main_v160) (.of main_v161) (.of main_v162) 4 2 22 slices_S4x32x388x772_S4x32x384x768_0_0_4_2 slices_S4x25x384x768_S4x1x384x768_0_22_0_0
    ++ (tapOps (.of main_v0) (.of main_arg1) (.of main_v162) (.of main_v163) (.of main_v164) (.of main_v165) (.of main_v166) (.of main_v167) (.of main_v168) (.of main_v169) 4 3 23 slices_S4x32x388x772_S4x32x384x768_0_0_4_3 slices_S4x25x384x768_S4x1x384x768_0_23_0_0
    ++ (tapOps (.of main_v0) (.of main_arg1) (.of main_v169) (.of main_v170) (.of main_v171) (.of main_v172) (.of main_v173) (.of main_v174) (.of main_v175) (.of main_v176) 4 4 24 slices_S4x32x388x772_S4x32x384x768_0_0_4_4 slices_S4x25x384x768_S4x1x384x768_0_24_0_0)))))))))))))))))))))))))

set_option maxRecDepth 8192 in
set_option maxHeartbeats 4000000 in
/-- @main is that straight line: its three consecutive windows of statements, with the padding function's body in place
    of its call, are the list's operations in order. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem preOps_sub : (preOps : List (HloOp τ sig (Elt F))).Forall fun op => op.bufs ⊆ tcRefs τ sig :=
  ⟨nullary_bufs_sub .., unary_bufs_sub .., binary_bufs_sub .., nullary_bufs_sub .., unary_bufs_sub ..⟩
theorem tapOps_sub (pd : TRef sig ⟨S4x32x388x772, .f32⟩) (w : TRef sig ⟨S4x25x384x768, .f32⟩)
    (acc s : TRef sig ⟨S4x32x384x768, .f32⟩) (p : TRef sig ⟨S4x1x384x768, .f32⟩) (r : TRef sig ⟨S4x384x768, .f32⟩)
    (b1 : TRef sig ⟨S4x1x384x768, .f32⟩) (b2 q o : TRef sig ⟨S4x32x384x768, .f32⟩) (di dj k : Nat)
    (h : S4x32x388x772.Slices ![0, 0, di, dj] S4x32x384x768) (h' : S4x25x384x768.Slices ![0, k, 0, 0] S4x1x384x768) :
    (tapOps (F := F) pd w acc s p r b1 b2 q o di dj k h h').Forall fun op => op.bufs ⊆ tcRefs τ sig :=
  ⟨unary_bufs_sub .., unary_bufs_sub .., reshape_bufs_sub .., unary_bufs_sub .., unary_bufs_sub .., binary_bufs_sub ..,
    binary_bufs_sub ..⟩
theorem ops_sub : (ops : List (HloOp τ sig (Elt F))).Forall fun op => op.bufs ⊆ tcRefs τ sig := by
  simp only [ops, List.forall_append]
  exact ⟨preOps_sub, tapOps_sub .., tapOps_sub .., tapOps_sub .., tapOps_sub .., tapOps_sub .., tapOps_sub .., tapOps_sub .., tapOps_sub .., tapOps_sub .., tapOps_sub .., tapOps_sub .., tapOps_sub .., tapOps_sub .., tapOps_sub .., tapOps_sub .., tapOps_sub .., tapOps_sub .., tapOps_sub .., tapOps_sub .., tapOps_sub .., tapOps_sub .., tapOps_sub .., tapOps_sub .., tapOps_sub .., tapOps_sub ..⟩

/-- Every operation determines what it writes. -/
theorem ops_fresh : (ops : List (HloOp τ sig (Elt F))).Forall fun op => op.fresh = ∅ := by
  simp only [ops, preOps, tapOps, List.cons_append, List.nil_append, List.Forall]
  repeat' constructor

/-- The first argument padded with the converted integer zero. -/
abbrev padded (x0 : S4x32x384x768.Idx → Elt F .f32) : S4x32x388x772.Idx → Elt F .f32 :=
  pad S4x32x388x772 ![0, 0, 2, 2] ![0, 0, 2, 2] ![0, 0, 0, 0] x0 (sitofp .f32 (constantI S_ 32 0#32) : FVec F S_ .f32)
    pads_S4x32x384x768_S4x32x388x772_000_000_220_220 h_S_

/-- The running sum's start: zero everywhere. -/
abbrev zeroSum : S4x32x384x768.Idx → Elt F .f32 :=
  broadcastInDim S4x32x384x768 ![] bcast_S_S4x32x384x768 (constant S_ .f32 0x00000000#32 : FVec F S_ .f32)

/-- What @main leaves in its result buffer, as whole arrays: the 25 taps added onto zero in order. -/
def hostSum (x0 : S4x32x384x768.Idx → Elt F .f32) (x1 : S4x25x384x768.Idx → Elt F .f32) : S4x32x384x768.Idx → Elt F .f32 :=
  (hostStep (padded x0) x1 (hostStep (padded x0) x1 (hostStep (padded x0) x1 (hostStep (padded x0) x1 (hostStep (padded x0) x1 (hostStep (padded x0) x1 (hostStep (padded x0) x1 (hostStep (padded x0) x1 (hostStep (padded x0) x1 (hostStep (padded x0) x1 (hostStep (padded x0) x1 (hostStep (padded x0) x1 (hostStep (padded x0) x1 (hostStep (padded x0) x1 (hostStep (padded x0) x1 (hostStep (padded x0) x1 (hostStep (padded x0) x1 (hostStep (padded x0) x1 (hostStep (padded x0) x1 (hostStep (padded x0) x1 (hostStep (padded x0) x1 (hostStep (padded x0) x1 (hostStep (padded x0) x1 (hostStep (padded x0) x1 (hostStep (padded x0) x1 (zeroSum (F := F)) 0 0 0 slices_S4x32x388x772_S4x32x384x768_0_0_0_0 slices_S4x25x384x768_S4x1x384x768_0_0_0_0) 0 1 1 slices_S4x32x388x772_S4x32x384x768_0_0_0_1 slices_S4x25x384x768_S4x1x384x768_0_1_0_0) 0 2 2 slices_S4x32x388x772_S4x32x384x768_0_0_0_2 slices_S4x25x384x768_S4x1x384x768_0_2_0_0) 0 3 3 slices_S4x32x388x772_S4x32x384x768_0_0_0_3 slices_S4x25x384x768_S4x1x384x768_0_3_0_0) 0 4 4 slices_S4x32x388x772_S4x32x384x768_0_0_0_4 slices_S4x25x384x768_S4x1x384x768_0_4_0_0) 1 0 5 slices_S4x32x388x772_S4x32x384x768_0_0_1_0 slices_S4x25x384x768_S4x1x384x768_0_5_0_0) 1 1 6 slices_S4x32x388x772_S4x32x384x768_0_0_1_1 slices_S4x25x384x768_S4x1x384x768_0_6_0_0) 1 2 7 slices_S4x32x388x772_S4x32x384x768_0_0_1_2 slices_S4x25x384x768_S4x1x384x768_0_7_0_0) 1 3 8 slices_S4x32x388x772_S4x32x384x768_0_0_1_3 slices_S4x25x384x768_S4x1x384x768_0_8_0_0) 1 4 9 slices_S4x32x388x772_S4x32x384x768_0_0_1_4 slices_S4x25x384x768_S4x1x384x768_0_9_0_0) 2 0 10 slices_S4x32x388x772_S4x32x384x768_0_0_2_0 slices_S4x25x384x768_S4x1x384x768_0_10_0_0) 2 1 11 slices_S4x32x388x772_S4x32x384x768_0_0_2_1 slices_S4x25x384x768_S4x1x384x768_0_11_0_0) 2 2 12 slices_S4x32x388x772_S4x32x384x768_0_0_2_2 slices_S4x25x384x768_S4x1x384x768_0_12_0_0) 2 3 13 slices_S4x32x388x772_S4x32x384x768_0_0_2_3 slices_S4x25x384x768_S4x1x384x768_0_13_0_0) 2 4 14 slices_S4x32x388x772_S4x32x384x768_0_0_2_4 slices_S4x25x384x768_S4x1x384x768_0_14_0_0) 3 0 15 slices_S4x32x388x772_S4x32x384x768_0_0_3_0 slices_S4x25x384x768_S4x1x384x768_0_15_0_0) 3 1 16 slices_S4x32x388x772_S4x32x384x768_0_0_3_1 slices_S4x25x384x768_S4x1x384x768_0_16_0_0) 3 2 17 slices_S4x32x388x772_S4x32x384x768_0_0_3_2 slices_S4x25x384x768_S4x1x384x768_0_17_0_0) 3 3 18 slices_S4x32x388x772_S4x32x384x768_0_0_3_3 slices_S4x25x384x768_S4x1x384x768_0_18_0_0) 3 4 19 slices_S4x32x388x772_S4x32x384x768_0_0_3_4 slices_S4x25x384x768_S4x1x384x768_0_19_0_0) 4 0 20 slices_S4x32x388x772_S4x32x384x768_0_0_4_0 slices_S4x25x384x768_S4x1x384x768_0_20_0_0) 4 1 21 slices_S4x32x388x772_S4x32x384x768_0_0_4_1 slices_S4x25x384x768_S4x1x384x768_0_21_0_0) 4 2 22 slices_S4x32x388x772_S4x32x384x768_0_0_4_2 slices_S4x25x384x768_S4x1x384x768_0_22_0_0) 4 3 23 slices_S4x32x388x772_S4x32x384x768_0_0_4_3 slices_S4x25x384x768_S4x1x384x768_0_23_0_0) 4 4 24 slices_S4x32x388x772_S4x32x384x768_0_0_4_4 slices_S4x25x384x768_S4x1x384x768_0_24_0_0)

attribute [local irreducible] pad extractStridedSlice broadcastInDim shapeCast mulf addf constant constantI sitofp in
set_option maxRecDepth 16384 in
set_option maxHeartbeats 4000000 in
/-- The fold at the last sum's buffer is the 25 steps composed. Every buffer is written by exactly one operation, so reading
    a sum's buffer goes back through its tap's seven operations to the sum before, down to the zero array, and reading the
    padded array's or the weights' buffer from any tap goes back to the padding, or to the launch contents. The window, the
    reshape, the broadcasts, the product and the sum are carried as they stand: nothing about them is used. -/
theorem out_eq (V : Valuation τ sig (Elt F)) :
    after ops V (main_v176 : DevRef τ sig) = hostSum (V (main_arg0 : DevRef τ sig)) (V (main_arg1 : DevRef τ sig)) := by
  simp only [ops, preOps, tapOps, List.cons_append, List.nil_append, after_cons, after_nil]
  rfl

set_option maxRecDepth 16384 in
set_option maxHeartbeats 4000000 in
/-- No operation writes the first argument. -/
theorem arg0_eq (V : Valuation τ sig (Elt F)) :
    after ops V (main_arg0 : DevRef τ sig) = V (main_arg0 : DevRef τ sig) := by
  simp only [ops, preOps, tapOps, List.cons_append, List.nil_append, after_cons, after_nil]
  rfl

set_option maxRecDepth 16384 in
set_option maxHeartbeats 4000000 in
/-- No operation writes the second argument. -/
theorem arg1_eq (V : Valuation τ sig (Elt F)) :
    after ops V (main_arg1 : DevRef τ sig) = V (main_arg1 : DevRef τ sig) := by
  simp only [ops, preOps, tapOps, List.cons_append, List.nil_append, after_cons, after_nil]
  rfl

/-- On every device, for any float values, from any memory with zero counters: every weakly fair execution of @main
    terminates with the result buffer at the 25 taps added onto zero, as whole arrays of the arguments, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v176)
        = hostSum (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v176).trans (out_eq _), (h c main_arg0).trans (arg0_eq _),
      (h c main_arg1).trans (arg1_eq _)⟩)
    (run_seq scopedRefs_eq scopedSems_eq defs main (fun _ => ops) main_eq (fun _ => ops_sub) m ρ
      (fun _ => List.forall_iff_forall_mem.mp ops_fresh))

end Cert.ReferenceIdeal.Hand

end
-- ==== Proof.RefValue.lean ====
/-
  The reference's result, read at an index, is the aggregation.

  As whole arrays the reference adds, tap after tap, the window of the padded array at offset (0, 0, di, dj) times slab k
  of the weights broadcast over the channels, onto the zero array. At the result's index (n, c, h, w) the window reads the
  padded array at (n, c, h + di, w + dj), the broadcast slab reads the weights at (n, k, h, w), the zero array reads zero,
  and the additions and products are pointwise: the specification's term, tap by tap.
-/
import proofs.«133670_j89395449299015_2_alg».proof.Proof.RefRun
import proofs.«133670_j89395449299015_2_alg».proof.Proof.Spec
import Idealize.ShloMosaic.Lib.Pipeline.Value

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The host's slice of the padded array from (0, 0, di, dj), read at the result's index (n, c, h, w), is the padded
    array at the (di, dj)-neighbour (n, c, h + di, w + dj). -/
theorem slice_apply (P : S4x32x388x772.Idx → Elt F .f32) (di dj : Nat) (hd : di ≤ 4 ∧ dj ≤ 4)
    (h : S4x32x388x772.Slices ![0, 0, di, dj] S4x32x384x768) (i : S4x32x384x768.Idx) :
    extractStridedSlice S4x32x384x768 ![0, 0, di, dj] P h i = P (Lga.nbr di dj hd i) :=
  extractStridedSlice_apply ![0, 0, di, dj] P h i (Lga.nbr di dj hd i) (fun a => match a with
    | ⟨0, _⟩ => by show (i 0).val = 0 + (i 0).val; omega
    | ⟨1, _⟩ => by show (i 1).val = 0 + (i 1).val; omega
    | ⟨2, _⟩ => by show (i 2).val + di = di + (i 2).val; omega
    | ⟨3, _⟩ => by show (i 3).val + dj = dj + (i 3).val; omega)

/-- The host's tap-k weights — slab k of the weights array cut out as [4, 1, 384, 768], reshaped to [4, 384, 768], and
    broadcast back over the channel axis to [4, 32, 384, 768] — read at the result's index (n, c, h, w), are the weights
    array at (n, k, h, w). -/
theorem weights_apply (W : S4x25x384x768.Idx → Elt F .f32) (k : Nat) (hk : k < 25)
    (h : S4x25x384x768.Slices ![0, k, 0, 0] S4x1x384x768) (i : S4x32x384x768.Idx) :
    hostWeights W k h i = W (Lga.wgt k hk i) := by
  unfold hostWeights
  have hi0 : (i 0).val < 4 := (i 0).isLt
  have hi2 : (i 2).val < 384 := (i 2).isLt
  have hi3 : (i 3).val < 768 := (i 3).isLt
  -- the index with the channel axis collapsed, then dropped, then restored as the slab's one channel
  refine (broadcastInDim_apply _ bcast_S4x1x384x768_S4x32x384x768_0_1_2_3 _ i
    (fun a => match a with
      | ⟨0, _⟩ => ⟨(i 0).val, (i 0).isLt⟩
      | ⟨1, _⟩ => ⟨0, Nat.one_pos⟩
      | ⟨2, _⟩ => ⟨(i 2).val, (i 2).isLt⟩
      | ⟨3, _⟩ => ⟨(i 3).val, (i 3).isLt⟩ : S4x1x384x768.Idx) (fun a => match a with
      | ⟨0, _⟩ => by show (i 0).val = if (4 : Nat) = 1 then 0 else (i 0).val; rw [if_neg (by decide)]
      | ⟨1, _⟩ => by show 0 = if (1 : Nat) = 1 then 0 else (i 1).val; rw [if_pos rfl]
      | ⟨2, _⟩ => by show (i 2).val = if (384 : Nat) = 1 then 0 else (i 2).val; rw [if_neg (by decide)]
      | ⟨3, _⟩ => by show (i 3).val = if (768 : Nat) = 1 then 0 else (i 3).val; rw [if_neg (by decide)])).trans ?_
  refine (broadcastInDim_apply _ bcast_S4x384x768_S4x1x384x768_0_2_3 _ _
    (fun a => match a with
      | ⟨0, _⟩ => ⟨(i 0).val, (i 0).isLt⟩
      | ⟨1, _⟩ => ⟨(i 2).val, (i 2).isLt⟩
      | ⟨2, _⟩ => ⟨(i 3).val, (i 3).isLt⟩ : S4x384x768.Idx) (fun a => match a with
      | ⟨0, _⟩ => by show (i 0).val = if (4 : Nat) = 1 then 0 else (i 0).val; rw [if_neg (by decide)]
      | ⟨1, _⟩ => by show (i 2).val = if (384 : Nat) = 1 then 0 else (i 2).val; rw [if_neg (by decide)]
      | ⟨2, _⟩ => by show (i 3).val = if (768 : Nat) = 1 then 0 else (i 3).val; rw [if_neg (by decide)])).trans ?_
  refine (shapeCast_apply _ shapeCasts_S4x1x384x768_S4x384x768 _
    (fun a => match a with
      | ⟨0, _⟩ => ⟨(i 0).val, (i 0).isLt⟩
      | ⟨1, _⟩ => ⟨0, Nat.one_pos⟩
      | ⟨2, _⟩ => ⟨(i 2).val, (i 2).isLt⟩
      | ⟨3, _⟩ => ⟨(i 3).val, (i 3).isLt⟩ : S4x1x384x768.Idx) ?_).trans ?_
  · rw [Shape.rowMajor_val_four, Shape.rowMajor_val_three]
    show (((i 0).val * 1 + 0) * 384 + (i 2).val) * 768 + (i 3).val = ((i 0).val * 384 + (i 2).val) * 768 + (i 3).val
    omega
  exact extractStridedSlice_apply ![0, k, 0, 0] W h _ (Lga.wgt k hk i) (fun a => match a with
    | ⟨0, _⟩ => by show (i 0).val = 0 + (i 0).val; omega
    | ⟨1, _⟩ => by show k = k + 0; omega
    | ⟨2, _⟩ => by show (i 2).val = 0 + (i 2).val; omega
    | ⟨3, _⟩ => by show (i 3).val = 0 + (i 3).val; omega)

/-- The sum's start reads zero everywhere. -/
theorem zeroSum_apply (i : S4x32x384x768.Idx) : zeroSum (F := F) i = FloatOps.ofBits .f32 0x00000000#32 :=
  broadcastInDim_apply _ bcast_S_S4x32x384x768 _ i (fun a => a.elim0) (fun a => a.elim0)

/-- THE REFERENCE'S RESULT is the aggregation of the padded first argument and the second, index by index. -/
theorem hostSum_eq (x0 : S4x32x384x768.Idx → Elt F .f32) (x1 : S4x25x384x768.Idx → Elt F .f32) :
    hostSum x0 x1 = Lga.G (padded x0) x1 := by
  funext i
  unfold hostSum Lga.G
  refine (Lga.tap_step (Lga.tap_step (Lga.tap_step (Lga.tap_step (Lga.tap_step (Lga.tap_step (Lga.tap_step (Lga.tap_step (Lga.tap_step (Lga.tap_step (Lga.tap_step (Lga.tap_step (Lga.tap_step (Lga.tap_step (Lga.tap_step (Lga.tap_step (Lga.tap_step (Lga.tap_step (Lga.tap_step (Lga.tap_step (Lga.tap_step (Lga.tap_step (Lga.tap_step (Lga.tap_step (Lga.tap_step (zeroSum_apply i) ?_ ?_) ?_ ?_) ?_ ?_) ?_ ?_) ?_ ?_) ?_ ?_) ?_ ?_) ?_ ?_) ?_ ?_) ?_ ?_) ?_ ?_) ?_ ?_) ?_ ?_) ?_ ?_) ?_ ?_) ?_ ?_) ?_ ?_) ?_ ?_) ?_ ?_) ?_ ?_) ?_ ?_) ?_ ?_) ?_ ?_) ?_ ?_) ?_ ?_)
  all_goals first
    | exact slice_apply _ _ _ _ _ i
    | exact weights_apply _ _ _ _ i

end Cert.ReferenceIdeal.Hand

end
-- ==== Proof.lean ====
/-
  Local guided aggregation — per-pixel 5×5 filters shared across channels — as a TensorCore kernel against its jnp
  reference: the certificate's claims.

  For x : [4, 32, 384, 768] and tap weights W : [4, 25, 384, 768], with P the array x padded by two rows and two columns of
  zeros on every side of its last two axes,

      out (n, c, h, w) = ((0 + P (n, c, h, w) · W (n, 0, h, w)) + P (n, c, h, w + 1) · W (n, 1, h, w)) + …
                             + P (n, c, h + 4, w + 4) · W (n, 24, h, w),

  the 25 taps k = 5·di + dj added in order onto zero. Both programs pad first, with the same host operation. The kernel then
  runs a 4 × 32 grid, point (n, c) holding all of channel c of batch n of P and all 25 taps of batch n of W and storing the
  sum for its 384 × 768 pixels; the reference slices, reshapes and broadcasts whole arrays, one tap after the other. Each
  side builds the same left-nested term at every index — same order of the additions, same order of the two factors,
  same zero —, so the two results are equal over any interpretation of the float operations, the extended reals among
  them, with no law of arithmetic and no use of the inputs' finiteness: what is proved is where each factor is read.

  The kernel's frames, at the word level and idealized, are the generated ones (its body only loads, computes and
  stores through literal rectangles). The reference launches no kernel: its frame is its run with the result dropped. The
  ideal pass rewrote no operation of the kernel, so the idealization is the kernel's own text and there is nothing to
  preserve. The value claim puts the two runs side by side, both ending at the aggregation of the padded first argument
  and the second.
-/
import proofs.«133670_j89395449299015_2_alg».proof.Defs
import proofs.«133670_j89395449299015_2_alg».proof.Proof.Gen.Kernel
import proofs.«133670_j89395449299015_2_alg».proof.Proof.Gen.Kernel.Skeleton
import proofs.«133670_j89395449299015_2_alg».proof.Proof.Gen.Kernel.Launch
import proofs.«133670_j89395449299015_2_alg».proof.Proof.Gen.Kernel.Points
import proofs.«133670_j89395449299015_2_alg».proof.Proof.Gen.Kernel.Frame
import proofs.«133670_j89395449299015_2_alg».proof.Proof.Gen.KernelIdeal
import proofs.«133670_j89395449299015_2_alg».proof.Proof.Gen.KernelIdeal.Skeleton
import proofs.«133670_j89395449299015_2_alg».proof.Proof.Gen.KernelIdeal.Launch
import proofs.«133670_j89395449299015_2_alg».proof.Proof.Gen.KernelIdeal.Points
import proofs.«133670_j89395449299015_2_alg».proof.Proof.Gen.KernelIdeal.Frame
import proofs.«133670_j89395449299015_2_alg».proof.Proof.Gen.ReferenceIdeal
import proofs.«133670_j89395449299015_2_alg».proof.Proof.Gen.Pre_finite_inputs
import proofs.«133670_j89395449299015_2_alg».proof.Proof.KernelRun
import proofs.«133670_j89395449299015_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- The ideal pass rewrote nothing. -/
theorem preserves : Cert.preserves_Kernel_KernelIdeal := trivial

/-- Over the extended reals the kernel's result array ends at the aggregation of its padded first argument and its
    second, and the reference's, from arguments that agree, at the 25 taps added as whole arrays: index by index the
    same term. -/
theorem algebraic : Cert.algebraic_KernelIdeal_ReferenceIdeal := by
  intro m ρ m' ρ' _ hagree
  refine ⟨_, Cert.KernelIdeal.Agg.run (F := Ideal) m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2]
  exact Cert.ReferenceIdeal.Hand.hostSum_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
